-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v47_2)) (v1 : (c : Dev Cert.KernelIdeal.nD) → Buf (Elt Ideal) ((c.tc : Thread Cert.KernelIdeal.nD Cert.KernelIdeal.τ).loc Cert.KernelIdeal.main_v47_0)) (v2 : (c : Dev Cert.KernelIdeal.nD) → Buf (Elt Ideal) ((c.tc : Thread Cert.KernelIdeal.nD Cert.KernelIdeal.τ).loc Cert.KernelIdeal.main_v47_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_2) = v0 c
          ∧ r.2.mem ((c.tc : Thread Cert.KernelIdeal.nD Cert.KernelIdeal.τ).loc Cert.KernelIdeal.main_v47_0) = v1 c
          ∧ r.2.mem ((c.tc : Thread Cert.KernelIdeal.nD Cert.KernelIdeal.τ).loc Cert.KernelIdeal.main_v47_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S800000 : Shape := ⟨1, ![800000]⟩
abbrev S100000x32 : Shape := ⟨2, ![100000, 32]⟩
abbrev S512x64 : Shape := ⟨2, ![512, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S32 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg6 : FVec F S64x32 .f32) (main_arg7 : FVec F S32 .f32) (main_arg8 : FVec F S64x32 .f32) (main_arg9 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg6
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg8
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg9 main_v33

def fn {F : FTy → Type} [FloatOps F] (main_arg0 : FVec F S100000x512 .f32) (main_arg1 : IVec S800000 32) (main_arg2 : IVec S800000 32) (main_arg3 : FVec F S100000x32 .f32) (main_arg4 : FVec F S512x64 .f32) (main_arg5 : FVec F S64 .f32) (main_arg6 : FVec F S64x32 .f32) (main_arg7 : FVec F S32 .f32) (main_arg8 : FVec F S64x32 .f32) (main_arg9 : FVec F S32 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S100000x32 .f32 := Host.absf main_arg3
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S512x64 .f32 := Host.absf main_arg4
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S100000x512 : Shape := ⟨2, ![100000, 512]⟩
abbrev S800000 : Shape := ⟨1, ![800000]⟩
abbrev S100000x32 : Shape := ⟨2, ![100000, 32]⟩
abbrev S512x64 : Shape := ⟨2, ![512, 64]⟩
abbrev S64 : Shape := ⟨1, ![64]⟩
abbrev S64x32 : Shape := ⟨2, ![64, 32]⟩
abbrev S32 : Shape := ⟨1, ![32]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S100000x64 : Shape := ⟨2, ![100000, 64]⟩
abbrev S2000x512 : Shape := ⟨2, ![2000, 512]⟩
abbrev S2000x1 : Shape := ⟨2, ![2000, 1]⟩
abbrev S2000x64 : Shape := ⟨2, ![2000, 64]⟩
abbrev S800000x64 : Shape := ⟨2, ![800000, 64]⟩
abbrev S1x64 : Shape := ⟨2, ![1, 64]⟩
abbrev S2000x32 : Shape := ⟨2, ![2000, 32]⟩
abbrev S1x32 : Shape := ⟨2, ![1, 32]⟩

abbrev nBuf : Space → Nat
  | .hbm => 75
  | .vmem => 40
  | .smem => 0
  | _ => 0

abbrev bufTy : (tb : Table) → Fin (tcTables nBuf tb) → BufTy
  | .hbm, ⟨0, _⟩ => ⟨S100000x512, .f32⟩
  | .hbm, ⟨1, _⟩ => ⟨S800000, .i32⟩
  | .hbm, ⟨2, _⟩ => ⟨S800000, .i32⟩
  | .hbm, ⟨3, _⟩ => ⟨S100000x32, .f32⟩
  | .hbm, ⟨4, _⟩ => ⟨S512x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S64x32, .f32⟩
  | .hbm, ⟨9, _⟩ => ⟨S32, .f32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S100000, .f32⟩
  | .hbm, ⟨14, _⟩ => ⟨S800000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S100000, .f32⟩
  | .hbm, ⟨26, _⟩ => ⟨S800000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x1, .f32⟩
  | .hbm, ⟨36, _⟩ => ⟨S100000x64, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .f32⟩
  | .hbm, ⟨46, _⟩ => ⟨S_, .f32⟩
  | .hbm, ⟨47, _⟩ => ⟨S100000x64, .f32⟩
  | .hbm, ⟨48, _⟩ => ⟨S800000x1, .i32⟩
  | .hbm, ⟨49, _⟩ => ⟨S100000x64, .f32⟩
  | .hbm, ⟨50, _⟩ => ⟨S1x64, .f32⟩
  | .hbm, ⟨51, _⟩ => ⟨S100000x64, .f32⟩
  | .hbm, ⟨52, _⟩ => ⟨S100000x32, .f32⟩
  | .hbm, ⟨53, _⟩ => ⟨S100000x32, .f32⟩
  | .hbm, ⟨54, _⟩ => ⟨S100000x64, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x64, .f32⟩
  | .hbm, ⟨64, _⟩ => ⟨S_, .f32⟩
  | .hbm, ⟨65, _⟩ => ⟨S100000x64, .f32⟩
  | .hbm, ⟨66, _⟩ => ⟨S800000x1, .i32⟩
  | .hbm, ⟨67, _⟩ => ⟨S100000x64, .f32⟩
  | .hbm, ⟨68, _⟩ => ⟨S100000x32, .f32⟩
  | .hbm, ⟨69, _⟩ => ⟨S100000x32, .f32⟩
  | .hbm, ⟨70, _⟩ => ⟨S1x32, .f32⟩
  | .hbm, ⟨71, _⟩ => ⟨S1x32, .f32⟩
  | .hbm, ⟨72, _⟩ => ⟨S100000x32, .f32⟩
  | .hbm, ⟨73, _⟩ => ⟨S100000x32, .f32⟩
  | .hbm, ⟨74, _⟩ => ⟨S100000x32, .f32⟩
  | .local _ .vmem, ⟨0, _⟩ => ⟨S2000x512, .f32⟩
  | .local _ .vmem, ⟨1, _⟩ => ⟨S2000x512, .f32⟩
  | .local _ .vmem, ⟨2, _⟩ => ⟨S2000x1, .f32⟩
  | .local _ .vmem, ⟨3, _⟩ => ⟨S2000x1, .f32⟩
  | .local _ .vmem, ⟨4, _⟩ => ⟨S512x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x1, .f32⟩
  | .local _ .vmem, ⟨17, _⟩ => ⟨S2000x1, .f32⟩
  | .local _ .vmem, ⟨18, _⟩ => ⟨S64x32, .f32⟩
  | .local _ .vmem, ⟨19, _⟩ => ⟨S64x32, .f32⟩
  | .local _ .vmem, ⟨20, _⟩ => ⟨S2000x32, .f32⟩
  | .local _ .vmem, ⟨21, _⟩ => ⟨S2000x32, .f32⟩
  | .local _ .vmem, ⟨22, _⟩ => ⟨S2000x32, .f32⟩
  | .local _ .vmem, ⟨23, _⟩ => ⟨S2000x32, .f32⟩
  | .local _ .vmem, ⟨24, _⟩ => ⟨S2000x32, .f32⟩
  | .local _ .vmem, ⟨25, _⟩ => ⟨S2000x32, .f32⟩
  | .local _ .vmem, ⟨26, _⟩ => ⟨S2000x32, .f32⟩
  | .local _ .vmem, ⟨27, _⟩ => ⟨S2000x32, .f32⟩
  | .local _ .vmem, ⟨28, _⟩ => ⟨S2000x1, .f32⟩
  | .local _ .vmem, ⟨29, _⟩ => ⟨S2000x1, .f32⟩
  | .local _ .vmem, ⟨30, _⟩ => ⟨S1x32, .f32⟩
  | .local _ .vmem, ⟨31, _⟩ => ⟨S1x32, .f32⟩
  | .local _ .vmem, ⟨32, _⟩ => ⟨S2000x32, .f32⟩
  | .local _ .vmem, ⟨33, _⟩ => ⟨S2000x32, .f32⟩
  | .local _ .vmem, ⟨34, _⟩ => ⟨S2000x32, .f32⟩
  | .local _ .vmem, ⟨35, _⟩ => ⟨S2000x32, .f32⟩
  | .local _ .vmem, ⟨36, _⟩ => ⟨S2000x32, .f32⟩
  | .local _ .vmem, ⟨37, _⟩ => ⟨S2000x32, .f32⟩
  | .local _ .vmem, ⟨38, _⟩ => ⟨S2000x32, .f32⟩
  | .local _ .vmem, ⟨39, _⟩ => ⟨S2000x32, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_cst_4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_5 : Ref sig .tc := ⟨.hbm, 28, rfl⟩
abbrev main_v12 : Ref sig .tc := ⟨.hbm, 29, rfl⟩
abbrev main_v13 : Ref sig .tc := ⟨.hbm, 30, rfl⟩
abbrev main_cst_6 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_7 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_8 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31_0 : Ref sig .tc := ⟨.hbm, 52, rfl⟩
abbrev main_v31_1 : Ref sig .tc := ⟨.hbm, 53, rfl⟩
abbrev main_v32 : Ref sig .tc := ⟨.hbm, 54, rfl⟩
abbrev main_c_9 : Ref sig .tc := ⟨.hbm, 55, rfl⟩
abbrev main_v33 : Ref sig .tc := ⟨.hbm, 56, rfl⟩
abbrev main_v34 : Ref sig .tc := ⟨.hbm, 57, rfl⟩
abbrev main_c_10 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_11 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47_0 : Ref sig .tc := ⟨.hbm, 72, rfl⟩
abbrev main_v47_1 : Ref sig .tc := ⟨.hbm, 73, rfl⟩
abbrev main_v47_2 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc3_stg6_0 : Ref sig .tc := ⟨.vmem, 34, rfl⟩
abbrev cc3_stg6_1 : Ref sig .tc := ⟨.vmem, 35, rfl⟩
abbrev cc3_stg7_0 : Ref sig .tc := ⟨.vmem, 36, rfl⟩
abbrev cc3_stg7_1 : Ref sig .tc := ⟨.vmem, 37, rfl⟩
abbrev cc3_stg8_0 : Ref sig .tc := ⟨.vmem, 38, rfl⟩
abbrev cc3_stg8_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem4_0 : DmaSem sig := 31
abbrev cc3_sem5_0 : DmaSem sig := 32
abbrev cc3_sem5_1 : DmaSem sig := 33
abbrev cc3_sem6_0 : DmaSem sig := 34
abbrev cc3_sem6_1 : DmaSem sig := 35
abbrev cc3_sem7_0 : DmaSem sig := 36
abbrev cc3_sem7_1 : DmaSem sig := 37
abbrev cc3_sem8_0 : DmaSem sig := 38
abbrev cc3_sem8_1 : DmaSem sig := 39

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x32 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S2000x32 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S2000x32 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  shapeCasts_S100000_S100000x1 : S100000.ShapeCasts S100000x1
  inb_S2000x512_S2000x512_0_0 : ∀ a, (![0, 0] : Fin 2 → Nat) a + S2000x512.size a ≤ S2000x512.size a
  h_S2000x512 : 0 < S2000x512.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  inb_S2000x32_S2000x32_0_0 : ∀ a, (![0, 0] : Fin 2 → Nat) a + S2000x32.size a ≤ S2000x32.size a
  h_S2000x32 : 0 < S2000x32.numel
  concatenates_S100000x32_S100000x32_S100000x64_d1 : Shape.Concatenates [S100000x32, S100000x32] S100000x64 1
  slices_S100000x64_S100000x32_0_0 : S100000x64.Slices ![0, 0] S100000x32
  slices_S100000x64_S100000x32_0_32 : S100000x64.Slices ![0, 32] S100000x32
  shapeCasts_S32_S1x32 : S32.ShapeCasts S1x32
  shapeCasts_S2000x32_S2000x32 : S2000x32.ShapeCasts S2000x32
  broadcasts_S2000x1_S2000x32 : S2000x1.Broadcasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  scatter_S100000_S800000x1_S800000_n_0_0_1_wf : ScatterDims.WF S100000 S800000x1 S800000 [] [0] [0] 1
  dot_S2000x512_S512x64_S2000x64_1_0_0_1_n_n_wf : DotDims.WF S2000x512 S512x64 S2000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S2000x64_S64x32_S2000x32_1_0_0_1_n_n_wf : DotDims.WF S2000x64 S64x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x32.size a ≤ S64x32.size a
  hwx2_3 : ∀ i : grid2.Coords, EltTy.bits .f32 = 32 ∨ (Rect.block (s := S64x32) S64x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x32.size a ≤ S100000x32.size a
  hwx2_4 : ∀ i : grid2.Coords, EltTy.bits .f32 = 32 ∨ (Rect.block (s := S100000x32) S2000x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x32.size a ≤ S100000x32.size a
  hwx2_5 : ∀ i : grid2.Coords, EltTy.bits .f32 = 32 ∨ (Rect.block (s := S100000x32) S2000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x32.size a ≤ S100000x32.size a
  hwx3_0 : ∀ i : grid3.Coords, EltTy.bits .f32 = 32 ∨ (Rect.block (s := S100000x32) S2000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x32.size a ≤ S100000x32.size a
  hwx3_1 : ∀ i : grid3.Coords, EltTy.bits .f32 = 32 ∨ (Rect.block (s := S100000x32) S2000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x32.size a ≤ S100000x32.size a
  hwx3_5 : ∀ i : grid3.Coords, EltTy.bits .f32 = 32 ∨ (Rect.block (s := S100000x32) S2000x32.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x32.size a ≤ S100000x32.size a
  hwx3_6 : ∀ i : grid3.Coords, EltTy.bits .f32 = 32 ∨ (Rect.block (s := S100000x32) S2000x32.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x32.size a ≤ S100000x32.size a
  hwx3_7 : ∀ i : grid3.Coords, EltTy.bits .f32 = 32 ∨ (Rect.block (s := S100000x32) S2000x32.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x32.size a ≤ S100000x32.size a
  hwx3_8 : ∀ i : grid3.Coords, EltTy.bits .f32 = 32 ∨ (Rect.block (s := S100000x32) S2000x32.size (cc3_transform_8 i) (hinb3_8 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31_0) S2000x32.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v31_1) S2000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v43) S2000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S2000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v45) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v46) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg3) S2000x32.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v47_0) S2000x32.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v47_1) S2000x32.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v47_2) S2000x32.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S100000x512 : Shape := ⟨2, ![100000, 512]⟩
abbrev S800000 : Shape := ⟨1, ![800000]⟩
abbrev S100000x32 : Shape := ⟨2, ![100000, 32]⟩
abbrev S512x64 : Shape := ⟨2, ![512, 64]⟩
abbrev S64 : Shape := ⟨1, ![64]⟩
abbrev S64x32 : Shape := ⟨2, ![64, 32]⟩
abbrev S32 : Shape := ⟨1, ![32]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S100000x64 : Shape := ⟨2, ![100000, 64]⟩
abbrev S800000x64 : Shape := ⟨2, ![800000, 64]⟩
abbrev S1x64 : Shape := ⟨2, ![1, 64]⟩
abbrev S800000x32 : Shape := ⟨2, ![800000, 32]⟩
abbrev S1x32 : Shape := ⟨2, ![1, 32]⟩

abbrev nBuf : Space → Nat
  | .hbm => 109
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S800000, .i32⟩
  | .hbm, ⟨2, _⟩ => ⟨S800000, .i32⟩
  | .hbm, ⟨3, _⟩ => ⟨S100000x32, .f32⟩
  | .hbm, ⟨4, _⟩ => ⟨S512x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S64x32, .f32⟩
  | .hbm, ⟨9, _⟩ => ⟨S32, .f32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S100000, .f32⟩
  | .hbm, ⟨14, _⟩ => ⟨S800000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S100000, .f32⟩
  | .hbm, ⟨26, _⟩ => ⟨S800000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x512, .f32⟩
  | .hbm, ⟨36, _⟩ => ⟨S100000x512, .f32⟩
  | .hbm, ⟨37, _⟩ => ⟨S100000x64, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x64, .f32⟩
  | .hbm, ⟨47, _⟩ => ⟨S_, .f32⟩
  | .hbm, ⟨48, _⟩ => ⟨S100000x64, .f32⟩
  | .hbm, ⟨49, _⟩ => ⟨S800000x1, .i32⟩
  | .hbm, ⟨50, _⟩ => ⟨S100000x64, .f32⟩
  | .hbm, ⟨51, _⟩ => ⟨S100000x1, .f32⟩
  | .hbm, ⟨52, _⟩ => ⟨S100000x64, .f32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S_, .f32⟩
  | .hbm, ⟨58, _⟩ => ⟨S100000x64, .f32⟩
  | .hbm, ⟨59, _⟩ => ⟨S100000x64, .f32⟩
  | .hbm, ⟨60, _⟩ => ⟨S100000x1, .f32⟩
  | .hbm, ⟨61, _⟩ => ⟨S100000x64, .f32⟩
  | .hbm, ⟨62, _⟩ => ⟨S100000x64, .f32⟩
  | .hbm, ⟨63, _⟩ => ⟨S100000x32, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x32, .f32⟩
  | .hbm, ⟨73, _⟩ => ⟨S_, .f32⟩
  | .hbm, ⟨74, _⟩ => ⟨S100000x32, .f32⟩
  | .hbm, ⟨75, _⟩ => ⟨S800000x1, .i32⟩
  | .hbm, ⟨76, _⟩ => ⟨S100000x32, .f32⟩
  | .hbm, ⟨77, _⟩ => ⟨S100000x1, .f32⟩
  | .hbm, ⟨78, _⟩ => ⟨S100000x32, .f32⟩
  | .hbm, ⟨79, _⟩ => ⟨S100000x32, .f32⟩
  | .hbm, ⟨80, _⟩ => ⟨S1x32, .f32⟩
  | .hbm, ⟨81, _⟩ => ⟨S100000x32, .f32⟩
  | .hbm, ⟨82, _⟩ => ⟨S100000x32, .f32⟩
  | .hbm, ⟨83, _⟩ => ⟨S100000x1, .f32⟩
  | .hbm, ⟨84, _⟩ => ⟨S100000x64, .f32⟩
  | .hbm, ⟨85, _⟩ => ⟨S100000x64, .f32⟩
  | .hbm, ⟨86, _⟩ => ⟨S100000x32, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x32, .f32⟩
  | .hbm, ⟨96, _⟩ => ⟨S_, .f32⟩
  | .hbm, ⟨97, _⟩ => ⟨S100000x32, .f32⟩
  | .hbm, ⟨98, _⟩ => ⟨S800000x1, .i32⟩
  | .hbm, ⟨99, _⟩ => ⟨S100000x32, .f32⟩
  | .hbm, ⟨100, _⟩ => ⟨S100000x1, .f32⟩
  | .hbm, ⟨101, _⟩ => ⟨S100000x32, .f32⟩
  | .hbm, ⟨102, _⟩ => ⟨S100000x32, .f32⟩
  | .hbm, ⟨103, _⟩ => ⟨S1x32, .f32⟩
  | .hbm, ⟨104, _⟩ => ⟨S100000x32, .f32⟩
  | .hbm, ⟨105, _⟩ => ⟨S100000x32, .f32⟩
  | .hbm, ⟨106, _⟩ => ⟨S100000x32, .f32⟩
  | .hbm, ⟨107, _⟩ => ⟨S100000x32, .f32⟩
  | .hbm, ⟨108, _⟩ => ⟨S100000x32, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_cst_4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_5 : Ref sig .tc := ⟨.hbm, 28, rfl⟩
abbrev main_v12 : Ref sig .tc := ⟨.hbm, 29, rfl⟩
abbrev main_v13 : Ref sig .tc := ⟨.hbm, 30, rfl⟩
abbrev main_cst_6 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c : Ref sig .tc := ⟨.hbm, 38, rfl⟩
abbrev main_v20 : Ref sig .tc := ⟨.hbm, 39, rfl⟩
abbrev main_v21 : Ref sig .tc := ⟨.hbm, 40, rfl⟩
abbrev main_c_7 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_8 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call0_cst : Ref sig .tc := ⟨.hbm, 57, rfl⟩
abbrev main_call0_v0 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_11 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_12 : Ref sig .tc := ⟨.hbm, 87, rfl⟩
abbrev main_v61 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S100000x1_S100000x512_0_1 : S100000x1.BroadcastsInDim S100000x512 (![0, 1] : Fin 2 → Fin S100000x512.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S800000x1_S800000_n_0_0_1_wf : ScatterDims.WF S100000 S800000x1 S800000 [] [0] [0] 1
  dot_S100000x512_S512x64_S100000x64_1_0_0_1_n_n_wf : DotDims.WF S100000x512 S512x64 S100000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S100000x64_S64x32_S100000x32_1_0_0_1_n_n_wf : DotDims.WF S100000x64 S64x32 S100000x32 [1] [0] [0] [1] [] []
  gather_S100000x32_S800000x1_S800000x32_1_0_n_n_0_1_132_wf : GatherDims.WF S100000x32 S800000x1 S800000x32 [1] [0] [] [0] [] 1 ![1, 32]
  scatter_S100000x32_S800000x1_S800000x32_1_0_0_1_wf : ScatterDims.WF S100000x32 S800000x1 S800000x32 [1] [0] [0] 1

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S800000x1_S800000x32_1_0_n_n_0_1_132 : GatherDims S100000x32 S800000x1 S800000x32 where
  offsetDims := [1]
  collapsedSliceDims := [0]
  operandBatchingDims := []
  startIndicesBatchingDims := []
  startIndexMap := [0]
  indexVectorDim := 1
  sliceSizes := ![1, 32]
  wf := gather_S100000x32_S800000x1_S800000x32_1_0_n_n_0_1_132_wf
def scatter_S100000x32_S800000x1_S800000x32_1_0_0_1 : ScatterDims S100000x32 S800000x1 S800000x32 where
  updateWindowDims := [1]
  insertedWindowDims := [0]
  scatterDimsToOperandDims := [0]
  indexVectorDim := 1
  wf := scatter_S100000x32_S800000x1_S800000x32_1_0_0_1_wf

class Facts : Prop extends Facts₀ where

variable [Facts]
-- ==== Proof.KRun.lean ====
/-
  The idealized kernel's run, read for its VALUES: every weakly fair execution of @main terminates without a fault, and in
  the final memory every buffer that outlives a region (the arguments, the host operations' results, the kernels' output
  arrays) holds what the fold `W7` of @main's seven segments over the launch memory says — the host stretches applied as
  pure operations, each kernel region replacing its output arrays by what its grid points wrote back. The frame theorem
  keeps of this only "the arguments are unchanged"; a value proof needs the three result arrays as well, so the same
  launch of the segments is stated once more with the whole final memory in its post.
-/
import proofs.«170982_j54142357733691_1_alg».proof.Proof.KernelIdealFrameP

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every TensorCore at
    the last boundary's contents `W7`. -/
theorem run_mem : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- A buffer that is not scoped to a region, read after the run. -/
theorem run_at : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W7 m ρ c (Proc.devRef .tc b)) :=
  (θ_run defs _ _).mono (fun r h c b hb => h c _ (mem_uc b hb)) (run_mem m ρ)

end Cert.KernelIdeal.Run

end
-- ==== Proof.Spec.lean ====
/-
  The mathematics both programs compute, as whole-array functions on the extended reals, index by index.

  A graph convolution layer is three steps on a node-feature matrix `x : [n, k]`:
    * `scaleMM x col W` — every row `r` of `x` scaled by the row's factor `col r` (a column `[n, 1]`: the source-degree
      normalisation), then multiplied by the weights `W : [k, c]`: entry `(r, j)` is `∑ q, (x r q · col r) · W q j`;
    * the edge aggregation (a gather of rows followed by a scatter-add of rows: Proof/LibRowOps.lean);
    * `affine agg col b` — every row `r` of the aggregate scaled by `col r` (the destination-degree normalisation) plus the
      bias row `b : [1, c]`: entry `(r, j)` is `agg r j · col r + b j`.
  Between the layers `relu` (the maximum with zero), and at the end the reparameterisation `mean + noise · exp log_std`.

  Every one of these is ROW-LOCAL: entry `(r, j)` of the result reads row `r` of the row-shaped operands only. That is what lets
  a kernel compute it block of rows by block of rows (`scaleMM_rows`, `affine_rows`): the function of a block of rows is
  the block of the function.
-/
import Idealize.ShloMosaic.PureOps.Ideal
import Idealize.ShloMosaic.Lib.ValueIdx

noncomputable section

open scoped BigOperators

namespace Cert.Spec

open Idealize.ShloMosaic Idealize.ShloMosaic.ValueIdx

/-- The first coordinate of a rank-2 index, as a number below the first extent. -/
abbrev row {n c : Nat} (i : (⟨2, ![n, c]⟩ : Shape).Idx) : Fin n := ⟨(i 0).val, idx2_lt0 i⟩
/-- The second coordinate of a rank-2 index, as a number below the second extent. -/
abbrev col {n c : Nat} (i : (⟨2, ![n, c]⟩ : Shape).Idx) : Fin c := ⟨(i 1).val, idx2_lt1 i⟩

theorem row_ix2 {n c : Nat} (r : Fin n) (j : Fin c) : row (ix2 r j) = r := rfl
theorem col_ix2 {n c : Nat} (r : Fin n) (j : Fin c) : col (ix2 r j) = j := rfl

/-- Rows scaled, then multiplied by the weights: `(r, j) ↦ ∑ q, (x r q · s r) · W q j`. -/
def scaleMM {n k c : Nat} (x : (⟨2, ![n, k]⟩ : Shape).Idx → EReal) (s : (⟨2, ![n, 1]⟩ : Shape).Idx → EReal)
    (W : (⟨2, ![k, c]⟩ : Shape).Idx → EReal) : (⟨2, ![n, c]⟩ : Shape).Idx → EReal :=
  fun i => ∑ q : Fin k, (x (ix2 (row i) q) * s (ix2 (row i) (0 : Fin 1))) * W (ix2 q (col i))

/-- Rows scaled, plus the bias row: `(r, j) ↦ a r j · s r + b j`. -/
def affine {n c : Nat} (a : (⟨2, ![n, c]⟩ : Shape).Idx → EReal) (s : (⟨2, ![n, 1]⟩ : Shape).Idx → EReal)
    (b : (⟨2, ![1, c]⟩ : Shape).Idx → EReal) : (⟨2, ![n, c]⟩ : Shape).Idx → EReal :=
  fun i => a i * s (ix2 (row i) (0 : Fin 1)) + b (ix2 (0 : Fin 1) (col i))

/-- The maximum with (the float word) zero, entry by entry. -/
def relu {s : Shape} (a : s.Idx → EReal) : s.Idx → EReal :=
  fun i => max (a i) (Ideal.ofBits .f32 0x00000000#32)

/-- The reparameterisation `mean + noise · exp log_std`, entry by entry. -/
def reparam {s : Shape} (mean ls noise : s.Idx → EReal) : s.Idx → EReal :=
  fun i => mean i + noise i * Ideal.exp (ls i)

/-! ## Row-locality: a block of rows of the result is the function of the blocks of rows -/

/-- `scaleMM` of a block of rows (`ρ` places the block's rows in the array) is the block of `scaleMM`. -/
theorem scaleMM_rows {n n' k c : Nat} (ρ : Fin n' → Fin n)
    (X : (⟨2, ![n, k]⟩ : Shape).Idx → EReal) (S : (⟨2, ![n, 1]⟩ : Shape).Idx → EReal) (W : (⟨2, ![k, c]⟩ : Shape).Idx → EReal)
    (x : (⟨2, ![n', k]⟩ : Shape).Idx → EReal) (s : (⟨2, ![n', 1]⟩ : Shape).Idx → EReal)
    (hx : ∀ p q, x (ix2 p q) = X (ix2 (ρ p) q)) (hs : ∀ p, s (ix2 p (0 : Fin 1)) = S (ix2 (ρ p) (0 : Fin 1)))
    (p : Fin n') (j : Fin c) : scaleMM x s W (ix2 p j) = scaleMM X S W (ix2 (ρ p) j) := by
  unfold scaleMM
  simp only [row_ix2, col_ix2, hx, hs]

/-- `affine` of a block of rows is the block of `affine`. -/
theorem affine_rows {n n' c : Nat} (ρ : Fin n' → Fin n)
    (A : (⟨2, ![n, c]⟩ : Shape).Idx → EReal) (S : (⟨2, ![n, 1]⟩ : Shape).Idx → EReal) (b : (⟨2, ![1, c]⟩ : Shape).Idx → EReal)
    (a : (⟨2, ![n', c]⟩ : Shape).Idx → EReal) (s : (⟨2, ![n', 1]⟩ : Shape).Idx → EReal)
    (ha : ∀ p j, a (ix2 p j) = A (ix2 (ρ p) j)) (hs : ∀ p, s (ix2 p (0 : Fin 1)) = S (ix2 (ρ p) (0 : Fin 1)))
    (p : Fin n') (j : Fin c) : affine a s b (ix2 p j) = affine A S b (ix2 (ρ p) j) := by
  unfold affine
  simp only [row_ix2, col_ix2, ha, hs]

end Cert.Spec

end
-- ==== Proof.KDefs.lean ====
/-
  The idealized kernel program's host operations as functions of arrays, and its three results as functions of the ten argument
  arrays: the degree normalisation as a column, the edge aggregation (a gather of source rows followed by a scatter-add into
  destination rows), the biases as rows, the two heads' products laid side by side and cut apart again — composed with the
  specification's row-local functions (Proof/Spec.lean) in the order @main runs them.
-/
import proofs.«170982_j54142357733691_1_alg».proof.Proof.Gen.KernelIdeal
import proofs.«170982_j54142357733691_1_alg».proof.Proof.Spec

noncomputable section

namespace Cert.KernelIdeal.Val

open Cert.KernelIdeal Cert.KernelIdeal.Gen Cert.Spec
open Idealize.ShloMosaic

/-! ## The host operations' functions, and the results as functions of the arguments -/

/-- A float array of shape `s` at the extended reals. -/
abbrev Arr (s : Shape) := (⟨s, .f32⟩ : BufTy).Contents (Elt Ideal)
/-- A 32-bit integer array of shape `s`. -/
abbrev IArr (s : Shape) := (⟨s, .i32⟩ : BufTy).Contents (Elt Ideal)

/-- The degree normalisation as a column: the number of edges at each node (a scatter-add of ones at the edge ends),
    clamped below at one, to the power minus one half. -/
def degCol (idx : IArr S800000) : Arr S100000x1 :=
  shapeCast S100000x1
    (Host.powf (F := Ideal)
      (maximumf (F := Ideal)
        (Host.scatterAdd (F := Ideal) scatter_S100000_S800000x1_S800000_n_0_0_1
          (broadcastInDim S100000 ![] bcast_S_S100000 (constant (F := Ideal) S_ .f32 0x00000000#32))
          (broadcastInDim S800000x1 ![0] bcast_S800000_S800000x1_0 idx)
          (broadcastInDim S800000 ![] bcast_S_S800000 (constant (F := Ideal) S_ .f32 0x3F800000#32)))
        (broadcastInDim S100000 ![] bcast_S_S100000 (constant (F := Ideal) S_ .f32 0x3F800000#32)))
      (broadcastInDim S100000 ![] bcast_S_S100000 (constant (F := Ideal) S_ .f32 0xBF000000#32)))
    shapeCasts_S100000_S100000x1

/-- The gather's row numbers: a negative source number counts from the end, as a column. -/
def normIdx (src : IArr S800000) : IArr S800000x1 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 100000#32))) src)

/-- The scatter's row numbers: the destination numbers as a column. -/
def dstIdx (dst : IArr S800000) : IArr S800000x1 :=
  broadcastInDim S800000x1 ![0] bcast_S800000_S800000x1_0 dst

/-- The zero array the aggregation accumulates into. -/
def zeros64 : Arr S100000x64 :=
  broadcastInDim S100000x64 ![] bcast_S_S100000x64 (constant (F := Ideal) S_ .f32 0x00000000#32)

/-- The edge aggregation of a 64-column table: row `src e` gathered for every edge `e`, then added into row `dst e`. -/
def agg64 (src dst : IArr S800000) (h : Arr S100000x64) : Arr S100000x64 :=
  Host.scatterAdd (F := Ideal) (φ := .f32) scatter_S100000x64_S800000x1_S800000x64_1_0_0_1 zeros64 (dstIdx dst)
    (Host.gather gather_S100000x64_S800000x1_S800000x64_1_0_n_n_0_1_164 h (normIdx src))

/-- A bias vector as a row. -/
def row64 (b : Arr S64) : Arr S1x64 := shapeCast S1x64 b shapeCasts_S64_S1x64
/-- A bias vector as a row. -/
def row32 (b : Arr S32) : Arr S1x32 := shapeCast S1x32 b shapeCasts_S32_S1x32

/-- Two 32-column tables side by side. -/
def catCols (a b : Arr S100000x32) : Arr S100000x64 :=
  concatenate S100000x64 1 [⟨S100000x32, a⟩, ⟨S100000x32, b⟩] concatenates_S100000x32_S100000x32_S100000x64_d1
/-- The left 32 columns. -/
def colsLo (x : Arr S100000x64) : Arr S100000x32 := extractStridedSlice S100000x32 ![0, 0] x slices_S100000x64_S100000x32_0_0
/-- The right 32 columns. -/
def colsHi (x : Arr S100000x64) : Arr S100000x32 := extractStridedSlice S100000x32 ![0, 32] x slices_S100000x64_S100000x32_0_32

/-- The first layer's product. -/
def h1 (a0 : Arr S100000x512) (a1 : IArr S800000) (a4 : Arr S512x64) : Arr S100000x64 := scaleMM a0 (degCol a1) a4
/-- The hidden layer. -/
def hh (a0 : Arr S100000x512) (a1 a2 : IArr S800000) (a4 : Arr S512x64) (a5 : Arr S64) : Arr S100000x64 :=
  relu (affine (agg64 a1 a2 (h1 a0 a1 a4)) (degCol a2) (row64 a5))
/-- A head's product with its weights `w`. -/
def preM (a0 : Arr S100000x512) (a1 a2 : IArr S800000) (a4 : Arr S512x64) (a5 : Arr S64) (w : Arr S64x32) : Arr S100000x32 :=
  scaleMM (hh a0 a1 a2 a4 a5) (degCol a1) w
/-- The second aggregation, of the two heads' products side by side. -/
def g2 (a0 : Arr S100000x512) (a1 a2 : IArr S800000) (a4 : Arr S512x64) (a5 : Arr S64) (a6 a8 : Arr S64x32) : Arr S100000x64 :=
  agg64 a1 a2 (catCols (preM a0 a1 a2 a4 a5 a6) (preM a0 a1 a2 a4 a5 a8))
/-- The mean. -/
def mean (a0 : Arr S100000x512) (a1 a2 : IArr S800000) (a4 : Arr S512x64) (a5 : Arr S64) (a6 a8 : Arr S64x32) (a7 : Arr S32) : Arr S100000x32 :=
  affine (colsLo (g2 a0 a1 a2 a4 a5 a6 a8)) (degCol a2) (row32 a7)
/-- The log-deviation. -/
def lstd (a0 : Arr S100000x512) (a1 a2 : IArr S800000) (a4 : Arr S512x64) (a5 : Arr S64) (a6 a8 : Arr S64x32) (a9 : Arr S32) : Arr S100000x32 :=
  affine (colsHi (g2 a0 a1 a2 a4 a5 a6 a8)) (degCol a2) (row32 a9)
/-- The sample. -/
def zz (a0 : Arr S100000x512) (a1 a2 : IArr S800000) (a3 : Arr S100000x32) (a4 : Arr S512x64) (a5 : Arr S64) (a6 : Arr S64x32) (a7 : Arr S32)
    (a8 : Arr S64x32) (a9 : Arr S32) : Arr S100000x32 :=
  reparam (mean a0 a1 a2 a4 a5 a6 a8 a7) (lstd a0 a1 a2 a4 a5 a6 a8 a9) a3

end Cert.KernelIdeal.Val

end
-- ==== Proof.KPay.lean ====
/-
  The four kernel bodies' arithmetic, read at an index: each store's value, as a function of the blocks the body loads, is one
  of the specification's row-local functions (Proof/Spec.lean) of those blocks —
    * the scaled product kernels store `scaleMM` of the feature block, the scale column's block and the whole weight matrix
      (the roundings to bf16 on the way into the matrix unit are the identity on the extended reals, and the matrix unit's
      product into a zero accumulator is the plain sum over the contracted axis);
    * the finalising kernels store `affine` of the aggregate's block, the scale column's block and the bias row, the first
      under `relu`, the last also the reparameterisation of its two affine results and the noise block.
-/
import proofs.«170982_j54142357733691_1_alg».proof.Proof.Gen.KernelIdeal.Skeleton
import proofs.«170982_j54142357733691_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.Spec

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The matrix unit's product into a zero accumulator, read at `(p, j)`: the sum over the one contracted axis of the
    products of the left operand's row `p` and the right operand's column `j`. -/
theorem mm_512_64_apply (l : FVec Ideal S2000x512 .bf16) (r : FVec Ideal S512x64 .bf16) (p : Fin 2000) (j : Fin 64) :
    matmul dot_S2000x512_S512x64_S2000x64_1_0_0_1_n_n none l r (constant S2000x64 .f32 0x00000000#32) (ix2 p j)
      = ∑ k : Fin 512, l (ix2 p k) * r (ix2 k j) := by
  simp only [matmul]
  rw [Ideal.matmul_constant_zero_apply, ← Equiv.sum_comp (contrEquiv1 dot_S2000x512_S512x64_S2000x64_1_0_0_1_n_n 512 rfl rfl).symm]
  refine Finset.sum_congr rfl fun k _ => ?_
  have hk := contrEquiv1_symm_val dot_S2000x512_S512x64_S2000x64_1_0_0_1_n_n 512 rfl rfl k
  have el : dot_S2000x512_S512x64_S2000x64_1_0_0_1_n_n.lhsIdx (ix2 p j) ((contrEquiv1 dot_S2000x512_S512x64_S2000x64_1_0_0_1_n_n 512 rfl rfl).symm k) = ix2 p k := funext fun a => Fin.ext (by
    match a with
    | ⟨0, _⟩ =>
      show (dot_S2000x512_S512x64_S2000x64_1_0_0_1_n_n.lhsIdx (ix2 p j) _ 0).val = p.val
      unfold DotDims.lhsIdx
      rw [dif_neg (show ¬(0 : Fin S2000x512.rank) ∈ dot_S2000x512_S512x64_S2000x64_1_0_0_1_n_n.lhsBatch by decide), dif_pos (show (0 : Fin S2000x512.rank) ∈ dot_S2000x512_S512x64_S2000x64_1_0_0_1_n_n.lhsNonContracting by decide)]
      rfl
    | ⟨1, _⟩ => exact (dot_S2000x512_S512x64_S2000x64_1_0_0_1_n_n.lhsIdx_val_of_single rfl _ _).trans hk)
  have er : dot_S2000x512_S512x64_S2000x64_1_0_0_1_n_n.rhsIdx (ix2 p j) ((contrEquiv1 dot_S2000x512_S512x64_S2000x64_1_0_0_1_n_n 512 rfl rfl).symm k) = ix2 k j := funext fun a => Fin.ext (by
    match a with
    | ⟨0, _⟩ => exact (dot_S2000x512_S512x64_S2000x64_1_0_0_1_n_n.rhsIdx_val_of_single rfl _ _).trans hk
    | ⟨1, _⟩ =>
      show (dot_S2000x512_S512x64_S2000x64_1_0_0_1_n_n.rhsIdx (ix2 p j) _ 1).val = j.val
      unfold DotDims.rhsIdx
      rw [dif_neg (show ¬(1 : Fin S512x64.rank) ∈ dot_S2000x512_S512x64_S2000x64_1_0_0_1_n_n.rhsBatch by decide), dif_pos (show (1 : Fin S512x64.rank) ∈ dot_S2000x512_S512x64_S2000x64_1_0_0_1_n_n.rhsNonContracting by decide)]
      rfl)
  rw [el, er]

/-- The matrix unit's product into a zero accumulator, read at `(p, j)`: the sum over the one contracted axis of the
    products of the left operand's row `p` and the right operand's column `j`. -/
theorem mm_64_32_apply (l : FVec Ideal S2000x64 .bf16) (r : FVec Ideal S64x32 .bf16) (p : Fin 2000) (j : Fin 32) :
    matmul dot_S2000x64_S64x32_S2000x32_1_0_0_1_n_n none l r (constant S2000x32 .f32 0x00000000#32) (ix2 p j)
      = ∑ k : Fin 64, l (ix2 p k) * r (ix2 k j) := by
  simp only [matmul]
  rw [Ideal.matmul_constant_zero_apply, ← Equiv.sum_comp (contrEquiv1 dot_S2000x64_S64x32_S2000x32_1_0_0_1_n_n 64 rfl rfl).symm]
  refine Finset.sum_congr rfl fun k _ => ?_
  have hk := contrEquiv1_symm_val dot_S2000x64_S64x32_S2000x32_1_0_0_1_n_n 64 rfl rfl k
  have el : dot_S2000x64_S64x32_S2000x32_1_0_0_1_n_n.lhsIdx (ix2 p j) ((contrEquiv1 dot_S2000x64_S64x32_S2000x32_1_0_0_1_n_n 64 rfl rfl).symm k) = ix2 p k := funext fun a => Fin.ext (by
    match a with
    | ⟨0, _⟩ =>
      show (dot_S2000x64_S64x32_S2000x32_1_0_0_1_n_n.lhsIdx (ix2 p j) _ 0).val = p.val
      unfold DotDims.lhsIdx
      rw [dif_neg (show ¬(0 : Fin S2000x64.rank) ∈ dot_S2000x64_S64x32_S2000x32_1_0_0_1_n_n.lhsBatch by decide), dif_pos (show (0 : Fin S2000x64.rank) ∈ dot_S2000x64_S64x32_S2000x32_1_0_0_1_n_n.lhsNonContracting by decide)]
      rfl
    | ⟨1, _⟩ => exact (dot_S2000x64_S64x32_S2000x32_1_0_0_1_n_n.lhsIdx_val_of_single rfl _ _).trans hk)
  have er : dot_S2000x64_S64x32_S2000x32_1_0_0_1_n_n.rhsIdx (ix2 p j) ((contrEquiv1 dot_S2000x64_S64x32_S2000x32_1_0_0_1_n_n 64 rfl rfl).symm k) = ix2 k j := funext fun a => Fin.ext (by
    match a with
    | ⟨0, _⟩ => exact (dot_S2000x64_S64x32_S2000x32_1_0_0_1_n_n.rhsIdx_val_of_single rfl _ _).trans hk
    | ⟨1, _⟩ =>
      show (dot_S2000x64_S64x32_S2000x32_1_0_0_1_n_n.rhsIdx (ix2 p j) _ 1).val = j.val
      unfold DotDims.rhsIdx
      rw [dif_neg (show ¬(1 : Fin S64x32.rank) ∈ dot_S2000x64_S64x32_S2000x32_1_0_0_1_n_n.rhsBatch by decide), dif_pos (show (1 : Fin S64x32.rank) ∈ dot_S2000x64_S64x32_S2000x32_1_0_0_1_n_n.rhsNonContracting by decide)]
      rfl)
  rw [el, er]

/-- The first kernel's store: the feature block's rows scaled by the column block, times the weights. -/
theorem pay0 (x0 : Vec Ideal S2000x512 .f32) (x1 : Vec Ideal S2000x1 .f32) (x6 : Vec Ideal S512x64 .f32) :
    k0_pay1 x0 x1 x6 = scaleMM x0 x1 x6 := by
  funext i
  obtain ⟨p, j, rfl⟩ : ∃ (p : Fin 2000) (j : Fin 64), i = ix2 p j := ⟨i 0, i 1, eq_ix2 i⟩
  unfold k0_pay1
  rw [mm_512_64_apply]
  unfold scaleMM
  refine Finset.sum_congr rfl fun k _ => ?_
  rw [truncf_apply, truncf_apply, mulf_apply, shapeCast_self, broadcastTo_a1_ab_apply]

/-- The second kernel's store: the aggregate block's rows scaled by the column block, plus the bias row, under `relu`. -/
theorem pay1 (v0 : Vec Ideal S2000x64 .f32) (v2 : Vec Ideal S2000x1 .f32) (v6 : Vec Ideal S1x64 .f32) :
    k1_pay1 v0 v2 v6 = relu (affine v0 v2 v6) := by
  funext i
  obtain ⟨p, j, rfl⟩ : ∃ (p : Fin 2000) (j : Fin 64), i = ix2 p j := ⟨i 0, i 1, eq_ix2 i⟩
  unfold k1_pay1 relu affine
  simp only [maximumf_apply, addf_apply, mulf_apply, broadcast_apply, shapeCast_self, broadcastTo_a1_ab_apply,
    broadcastTo_1b_ab_apply]
  rfl

/-- The third kernel's first store: the hidden block's rows scaled by the column block, times the mean head's weights. -/
theorem pay2a (v0 : Vec Ideal S2000x64 .f32) (v2 : Vec Ideal S2000x1 .f32) (v7 : Vec Ideal S64x32 .f32) :
    k2_pay2 v0 v2 v7 = scaleMM v0 v2 v7 := by
  funext i
  obtain ⟨p, j, rfl⟩ : ∃ (p : Fin 2000) (j : Fin 32), i = ix2 p j := ⟨i 0, i 1, eq_ix2 i⟩
  unfold k2_pay2 k2_pay1
  rw [mm_64_32_apply]
  unfold scaleMM
  refine Finset.sum_congr rfl fun k _ => ?_
  rw [truncf_apply, truncf_apply, mulf_apply, shapeCast_self, shapeCast_self, broadcastTo_a1_ab_apply]

/-- The third kernel's second store: the same with the log-deviation head's weights. -/
theorem pay2b (v0 : Vec Ideal S2000x64 .f32) (v2 : Vec Ideal S2000x1 .f32) (v9 : Vec Ideal S64x32 .f32) :
    k2_pay3 v0 v2 v9 = scaleMM v0 v2 v9 := by
  funext i
  obtain ⟨p, j, rfl⟩ : ∃ (p : Fin 2000) (j : Fin 32), i = ix2 p j := ⟨i 0, i 1, eq_ix2 i⟩
  unfold k2_pay3 k2_pay1
  rw [mm_64_32_apply]
  unfold scaleMM
  refine Finset.sum_congr rfl fun k _ => ?_
  rw [truncf_apply, truncf_apply, mulf_apply, shapeCast_self, shapeCast_self, broadcastTo_a1_ab_apply]

/-- The last kernel's first store (the mean): the aggregate block's rows scaled by the column block, plus the bias row. -/
theorem pay3a (v0 : Vec Ideal S2000x32 .f32) (v2 : Vec Ideal S2000x1 .f32) (v6 : Vec Ideal S1x32 .f32) :
    k3_pay1 v0 v2 v6 = affine v0 v2 v6 := by
  funext i
  obtain ⟨p, j, rfl⟩ : ∃ (p : Fin 2000) (j : Fin 32), i = ix2 p j := ⟨i 0, i 1, eq_ix2 i⟩
  unfold k3_pay1 affine
  simp only [addf_apply, mulf_apply, shapeCast_self, broadcastTo_a1_ab_apply, broadcastTo_1b_ab_apply]

/-- The last kernel's second store (the log-deviation): the same arithmetic on its own aggregate and bias. -/
theorem pay3b (v10 : Vec Ideal S2000x32 .f32) (v12 : Vec Ideal S2000x1 .f32) (v16 : Vec Ideal S1x32 .f32) :
    k3_pay2 v10 v12 v16 = affine v10 v12 v16 := by
  funext i
  obtain ⟨p, j, rfl⟩ : ∃ (p : Fin 2000) (j : Fin 32), i = ix2 p j := ⟨i 0, i 1, eq_ix2 i⟩
  unfold k3_pay2 affine
  simp only [addf_apply, mulf_apply, shapeCast_self, broadcastTo_a1_ab_apply, broadcastTo_1b_ab_apply]

/-- The last kernel's third store (the sample): the mean plus the noise times the exponential of the log-deviation. -/
theorem pay3c (v0 : Vec Ideal S2000x32 .f32) (v2 : Vec Ideal S2000x1 .f32) (v6 : Vec Ideal S1x32 .f32)
    (v10 : Vec Ideal S2000x32 .f32) (v12 : Vec Ideal S2000x1 .f32) (v16 : Vec Ideal S1x32 .f32) (v20 : Vec Ideal S2000x32 .f32) :
    k3_pay3 v0 v2 v6 v10 v12 v16 v20 = reparam (affine v0 v2 v6) (affine v10 v12 v16) v20 := by
  unfold k3_pay3
  rw [pay3a, pay3b]
  rfl

end Cert.KernelIdeal.Pay

end
-- ==== Proof.KReg0.lean ====
/-
  Region 0 of the idealized kernel's @main, read for its value: the product kernel of the first layer, `(features · out-degree scale) @ W1`.
  The grid has fifty points; point `t` stages rows `2000·t … 2000·t + 1999` of every row-shaped operand (and the whole of
  the small operands), the body stores one of the specification's row-local functions of the staged blocks (Proof/KPay.lean), and
  the pipeline writes that block back to rows `2000·t …` of the output array. Row-locality makes what point `t` writes back
  the block of the whole-array function; the fifty blocks tile the array; so the array ends holding that function of
  the arrays the region found at its entry — whatever those were (`V` is a parameter).
-/
import proofs.«170982_j54142357733691_1_alg».proof.Proof.KernelIdealFrameP
import proofs.«170982_j54142357733691_1_alg».proof.Proof.KPay
import Idealize.ShloMosaic.Lib.Pipeline.Value

set_option maxRecDepth 16384

noncomputable section

namespace Cert.KernelIdeal.Reg0

open Cert.KernelIdeal Cert.KernelIdeal.Gen Cert.KernelIdeal.GenP Cert.KernelIdeal.Pay Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row `p` of the block of rows staged at point `t`, as a row of the array. -/
def blockRow (t : Fin 50) (p : Fin 2000) : Fin 100000 :=
  ⟨t.val * 2000 + p.val, by have := t.isLt; have := p.isLt; omega⟩

/-- The printed index maps, decided over the fifty points: a row-shaped window is at block row `t`, a small operand's window at
    its one block. -/
theorem idx : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- WHAT POINT `t` WRITES BACK is block `t` of `scaleMM` of the three arrays the region found. -/
theorem flushed_3 (c : Dev nD) (t : Fin cfg0.N) :
    (dat0 V c).flushed 3 t = ((cfg0.win 3).blk t).view.read (Elt Ideal)
      (scaleMM (V c main_arg0) (V c main_v16) (V c main_arg4)) := by
  show (cfg0.win 3).cut (grid0.coords t) ((dat0 V c).after 3 t) = _
  rw [after0_3]
  unfold out0_3
  rw [View.canon_unit_zero hz]
  simp only [View.ld_unit_zero (S := S2000x512) hz, View.ld_unit_zero (S := S2000x1) hz, View.ld_unit_zero (S := S512x64) hz]
  rw [pay0]
  obtain ⟨e00, e01, e10, e11, e20, e21, e30, e31⟩ := idx t
  have ht : t.val < 50 := Nat.lt_of_lt_of_eq t.isLt N_0
  have hW : iblk0 V c 2 t = V c main_arg4 := by
    funext y
    show V c main_arg4 (((cfg0.win 2).blk t).view.emb y) = V c main_arg4 y
    refine congrArg _ (funext fun a => Fin.ext ?_)
    match a with
    | ⟨0, _⟩ => show win0_2.index t (0 : Fin 2) * 512 + 1 * (y 0).val = (y 0).val; rw [e20]; omega
    | ⟨1, _⟩ => show win0_2.index t (1 : Fin 2) * 64 + 1 * (y 1).val = (y 1).val; rw [e21]; omega
  rw [hW]
  funext j
  obtain ⟨p, q, rfl⟩ : ∃ (p : Fin 2000) (q : Fin 64), j = ix2 p q := ⟨j 0, j 1, eq_ix2 j⟩
  show scaleMM (iblk0 V c 0 t) (iblk0 V c 1 t) (V c main_arg4) (ix2 p q)
    = scaleMM (V c main_arg0) (V c main_v16) (V c main_arg4) (((cfg0.win 3).blk t).view.emb (ix2 p q))
  have hemb : ((cfg0.win 3).blk t).view.emb (ix2 p q) = ix2 (blockRow ⟨t.val, ht⟩ p) q := by
    funext a; apply Fin.ext
    match a with
    | ⟨0, _⟩ => show win0_3.index t (0 : Fin 2) * 2000 + 1 * p.val = t.val * 2000 + p.val; rw [e30]; omega
    | ⟨1, _⟩ => show win0_3.index t (1 : Fin 2) * 64 + 1 * q.val = q.val; rw [e31]; omega
  rw [hemb]
  exact scaleMM_rows (blockRow ⟨t.val, ht⟩) (V c main_arg0) (V c main_v16) (V c main_arg4) (iblk0 V c 0 t) (iblk0 V c 1 t)
    (fun p q => by
      show V c main_arg0 (((cfg0.win 0).blk t).view.emb (ix2 p q)) = V c main_arg0 (ix2 (blockRow ⟨t.val, ht⟩ p) q)
      refine congrArg _ (funext fun a => Fin.ext ?_)
      match a with
      | ⟨0, _⟩ => show win0_0.index t (0 : Fin 2) * 2000 + 1 * p.val = t.val * 2000 + p.val; rw [e00]; omega
      | ⟨1, _⟩ => show win0_0.index t (1 : Fin 2) * 512 + 1 * q.val = q.val; rw [e01]; omega)
    (fun p => by
      show V c main_v16 (((cfg0.win 1).blk t).view.emb (ix2 p (0 : Fin 1))) = V c main_v16 (ix2 (blockRow ⟨t.val, ht⟩ p) (0 : Fin 1))
      refine congrArg _ (funext fun a => Fin.ext ?_)
      match a with
      | ⟨0, _⟩ => show win0_1.index t (0 : Fin 2) * 2000 + 1 * p.val = t.val * 2000 + p.val; rw [e10]; omega
      | ⟨1, _⟩ => show win0_1.index t (1 : Fin 2) * 1 + 1 * 0 = 0; rw [e11])
    p q

/-- An index of the array is in point `t`'s block of output window 3 iff each coordinate is in the block's range on its axis. -/
theorem mem_blk_3 (t : Fin cfg0.N) (i : S100000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v18).slice (win0_3.rect t)).set ↔ _
  rw [View.set_slice_whole, Rect.mem_set_unit]
  exact Iff.rfl

/-- Every index of output window 3's array is in the block of the point its row falls under: row `r` is written back at point `r / 2000`. -/
theorem covered_3 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 50 := N_0
  have hlt : (i 0).val / 2000 < cfg0.N := by rw [hN]; omega
  obtain ⟨-, -, -, -, -, -, e30, e31⟩ := idx (⟨(i 0).val / 2000, hlt⟩ : Fin cfg0.N)
  refine ⟨⟨(i 0).val / 2000, hlt⟩, flush0_3 _, ?_⟩
  rw [mem_blk_3]
  intro a
  match a with
  | ⟨0, _⟩ =>
    show win0_3.index ⟨(i 0).val / 2000, hlt⟩ (0 : Fin 2) * 2000 ≤ (i 0).val
      ∧ (i 0).val < win0_3.index ⟨(i 0).val / 2000, hlt⟩ (0 : Fin 2) * 2000 + 2000
    rw [e30]
    show (i 0).val / 2000 * 2000 ≤ (i 0).val ∧ (i 0).val < (i 0).val / 2000 * 2000 + 2000
    omega
  | ⟨1, _⟩ =>
    show win0_3.index ⟨(i 0).val / 2000, hlt⟩ (1 : Fin 2) * 64 ≤ (i 1).val
      ∧ (i 1).val < win0_3.index ⟨(i 0).val / 2000, hlt⟩ (1 : Fin 2) * 64 + 64
    rw [e31]
    omega

/-- THE ARRAY after the region: `scaleMM` of the arrays it found. -/
theorem final_3 (c : Dev nD) :
    (dat0 V c).arrAt 3 cfg0.N = scaleMM (V c main_arg0) (V c main_v16) (V c main_arg4) :=
  (dat0 V c).arrAt_eq_of_cover 3 _ (fun t _ => flushed_3 V c t) covered_3

end Cert.KernelIdeal.Reg0

end
-- ==== Proof.KReg1.lean ====
/-
  Region 1 of the idealized kernel's @main, read for its value: the finalising kernel of the first layer, `relu(aggregate · in-degree scale + b1)`.
  The grid has fifty points; point `t` stages rows `2000·t … 2000·t + 1999` of every row-shaped operand (and the whole of
  the small operands), the body stores one of the specification's row-local functions of the staged blocks (Proof/KPay.lean), and
  the pipeline writes that block back to rows `2000·t …` of the output array. Row-locality makes what point `t` writes back
  the block of the whole-array function; the fifty blocks tile the array; so the array ends holding that function of
  the arrays the region found at its entry — whatever those were (`V` is a parameter).
-/
import proofs.«170982_j54142357733691_1_alg».proof.Proof.KernelIdealFrameP
import proofs.«170982_j54142357733691_1_alg».proof.Proof.KPay
import Idealize.ShloMosaic.Lib.Pipeline.Value

set_option maxRecDepth 16384

noncomputable section

namespace Cert.KernelIdeal.Reg1

open Cert.KernelIdeal Cert.KernelIdeal.Gen Cert.KernelIdeal.GenP Cert.KernelIdeal.Pay Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row `p` of the block of rows staged at point `t`, as a row of the array. -/
def blockRow (t : Fin 50) (p : Fin 2000) : Fin 100000 :=
  ⟨t.val * 2000 + p.val, by have := t.isLt; have := p.isLt; omega⟩

/-- The printed index maps, decided over the fifty points: a row-shaped window is at block row `t`, a small operand's window at
    its one block. -/
theorem idx : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- WHAT POINT `t` WRITES BACK is block `t` of `relu (affine …)` of the three arrays the region found. -/
theorem flushed_3 (c : Dev nD) (t : Fin cfg1.N) :
    (dat1 V c).flushed 3 t = ((cfg1.win 3).blk t).view.read (Elt Ideal)
      (relu (affine (V c main_v28) (V c main_v17) (V c main_v29))) := by
  show (cfg1.win 3).cut (grid1.coords t) ((dat1 V c).after 3 t) = _
  rw [after1_3]
  unfold out1_3
  rw [View.canon_unit_zero hz]
  simp only [View.ld_unit_zero (S := S2000x64) hz, View.ld_unit_zero (S := S2000x1) hz, View.ld_unit_zero (S := S1x64) hz]
  rw [pay1]
  obtain ⟨e00, e01, e10, e11, e20, e21, e30, e31⟩ := idx t
  have ht : t.val < 50 := Nat.lt_of_lt_of_eq t.isLt N_1
  have hB : iblk1 V c 2 t = V c main_v29 := by
    funext y
    show V c main_v29 (((cfg1.win 2).blk t).view.emb y) = V c main_v29 y
    refine congrArg _ (funext fun a => Fin.ext ?_)
    match a with
    | ⟨0, _⟩ => show win1_2.index t (0 : Fin 2) * 1 + 1 * (y 0).val = (y 0).val; rw [e20]; omega
    | ⟨1, _⟩ => show win1_2.index t (1 : Fin 2) * 64 + 1 * (y 1).val = (y 1).val; rw [e21]; omega
  rw [hB]
  funext j
  obtain ⟨p, q, rfl⟩ : ∃ (p : Fin 2000) (q : Fin 64), j = ix2 p q := ⟨j 0, j 1, eq_ix2 j⟩
  show max (affine (iblk1 V c 0 t) (iblk1 V c 1 t) (V c main_v29) (ix2 p q)) (Ideal.ofBits .f32 0x00000000#32)
    = max (affine (V c main_v28) (V c main_v17) (V c main_v29) (((cfg1.win 3).blk t).view.emb (ix2 p q))) (Ideal.ofBits .f32 0x00000000#32)
  have hemb : ((cfg1.win 3).blk t).view.emb (ix2 p q) = ix2 (blockRow ⟨t.val, ht⟩ p) q := by
    funext a; apply Fin.ext
    match a with
    | ⟨0, _⟩ => show win1_3.index t (0 : Fin 2) * 2000 + 1 * p.val = t.val * 2000 + p.val; rw [e30]; omega
    | ⟨1, _⟩ => show win1_3.index t (1 : Fin 2) * 64 + 1 * q.val = q.val; rw [e31]; omega
  rw [hemb]
  exact congrArg (fun x => max x (Ideal.ofBits .f32 0x00000000#32))
    (affine_rows (blockRow ⟨t.val, ht⟩) (V c main_v28) (V c main_v17) (V c main_v29) (iblk1 V c 0 t) (iblk1 V c 1 t)
    (fun p q => by
      show V c main_v28 (((cfg1.win 0).blk t).view.emb (ix2 p q)) = V c main_v28 (ix2 (blockRow ⟨t.val, ht⟩ p) q)
      refine congrArg _ (funext fun a => Fin.ext ?_)
      match a with
      | ⟨0, _⟩ => show win1_0.index t (0 : Fin 2) * 2000 + 1 * p.val = t.val * 2000 + p.val; rw [e00]; omega
      | ⟨1, _⟩ => show win1_0.index t (1 : Fin 2) * 64 + 1 * q.val = q.val; rw [e01]; omega)
    (fun p => by
      show V c main_v17 (((cfg1.win 1).blk t).view.emb (ix2 p (0 : Fin 1))) = V c main_v17 (ix2 (blockRow ⟨t.val, ht⟩ p) (0 : Fin 1))
      refine congrArg _ (funext fun a => Fin.ext ?_)
      match a with
      | ⟨0, _⟩ => show win1_1.index t (0 : Fin 2) * 2000 + 1 * p.val = t.val * 2000 + p.val; rw [e10]; omega
      | ⟨1, _⟩ => show win1_1.index t (1 : Fin 2) * 1 + 1 * 0 = 0; rw [e11])
    p q)

/-- An index of the array is in point `t`'s block of output window 3 iff each coordinate is in the block's range on its axis. -/
theorem mem_blk_3 (t : Fin cfg1.N) (i : S100000x64.Idx) :
    i ∈ ((cfg1.win 3).blk t).view.set ↔ ∀ a : Fin 2, win1_3.index t a * S2000x64.size a ≤ (i a).val
      ∧ (i a).val < win1_3.index t a * S2000x64.size a + S2000x64.size a := by
  show i ∈ ((View.whole main_v30).slice (win1_3.rect t)).set ↔ _
  rw [View.set_slice_whole, Rect.mem_set_unit]
  exact Iff.rfl

/-- Every index of output window 3's array is in the block of the point its row falls under: row `r` is written back at point `r / 2000`. -/
theorem covered_3 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 50 := N_1
  have hlt : (i 0).val / 2000 < cfg1.N := by rw [hN]; omega
  obtain ⟨-, -, -, -, -, -, e30, e31⟩ := idx (⟨(i 0).val / 2000, hlt⟩ : Fin cfg1.N)
  refine ⟨⟨(i 0).val / 2000, hlt⟩, flush1_3 _, ?_⟩
  rw [mem_blk_3]
  intro a
  match a with
  | ⟨0, _⟩ =>
    show win1_3.index ⟨(i 0).val / 2000, hlt⟩ (0 : Fin 2) * 2000 ≤ (i 0).val
      ∧ (i 0).val < win1_3.index ⟨(i 0).val / 2000, hlt⟩ (0 : Fin 2) * 2000 + 2000
    rw [e30]
    show (i 0).val / 2000 * 2000 ≤ (i 0).val ∧ (i 0).val < (i 0).val / 2000 * 2000 + 2000
    omega
  | ⟨1, _⟩ =>
    show win1_3.index ⟨(i 0).val / 2000, hlt⟩ (1 : Fin 2) * 64 ≤ (i 1).val
      ∧ (i 1).val < win1_3.index ⟨(i 0).val / 2000, hlt⟩ (1 : Fin 2) * 64 + 64
    rw [e31]
    omega

/-- THE ARRAY after the region: `relu (affine …)` of the arrays it found. -/
theorem final_3 (c : Dev nD) :
    (dat1 V c).arrAt 3 cfg1.N = relu (affine (V c main_v28) (V c main_v17) (V c main_v29)) :=
  (dat1 V c).arrAt_eq_of_cover 3 _ (fun t _ => flushed_3 V c t) covered_3

end Cert.KernelIdeal.Reg1

end
-- ==== Proof.KReg2.lean ====
/-
  Region 2 of the idealized kernel's @main, read for its value: the two product kernels of the second layer in one call, `(h · out-degree scale) @ W2` and `… @ W3`.
  The grid has fifty points; point `t` stages rows `2000·t … 2000·t + 1999` of every row-shaped operand (and the whole of
  the small operands), the body stores one of the specification's row-local functions of the staged blocks (Proof/KPay.lean), and
  the pipeline writes that block back to rows `2000·t …` of the output array. Row-locality makes what point `t` writes back
  the block of the whole-array function; the fifty blocks tile the array; so the array ends holding that function of
  the arrays the region found at its entry — whatever those were (`V` is a parameter).
-/
import proofs.«170982_j54142357733691_1_alg».proof.Proof.KernelIdealFrameP
import proofs.«170982_j54142357733691_1_alg».proof.Proof.KPay
import Idealize.ShloMosaic.Lib.Pipeline.Value

set_option maxRecDepth 16384

noncomputable section

namespace Cert.KernelIdeal.Reg2

open Cert.KernelIdeal Cert.KernelIdeal.Gen Cert.KernelIdeal.GenP Cert.KernelIdeal.Pay Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row `p` of the block of rows staged at point `t`, as a row of the array. -/
def blockRow (t : Fin 50) (p : Fin 2000) : Fin 100000 :=
  ⟨t.val * 2000 + p.val, by have := t.isLt; have := p.isLt; omega⟩

/-- The printed index maps, decided over the fifty points: a row-shaped window is at block row `t`, a small operand's window at
    its one block. -/
theorem idx : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0
    ∧ win2_5.index t (0 : Fin 2) = t.val
    ∧ win2_5.index t (1 : Fin 2) = 0 :=
  (by decide +kernel : ∀ t : Fin grid2.N, _)

/-- WHAT POINT `t` WRITES BACK to output window 4 is block `t` of `scaleMM` of the hidden array, the scale column and the head's weights. -/
theorem flushed_4 (c : Dev nD) (t : Fin cfg2.N) :
    (dat2 V c).flushed 4 t = ((cfg2.win 4).blk t).view.read (Elt Ideal)
      (scaleMM (V c main_v30) (V c main_v16) (V c main_arg6)) := by
  show (cfg2.win 4).cut (grid2.coords t) ((dat2 V c).after 4 t) = _
  rw [after2_4]
  unfold out2_4
  rw [View.canon_unit_zero hz]
  simp only [View.ld_unit_zero (S := S2000x64) hz, View.ld_unit_zero (S := S2000x1) hz, View.ld_unit_zero (S := S64x32) hz]
  rw [pay2a]
  obtain ⟨e00, e01, e10, e11, e20, e21, e30, e31, e40, e41, e50, e51⟩ := idx t
  have ht : t.val < 50 := Nat.lt_of_lt_of_eq t.isLt N_2
  have hW : iblk2 V c 2 t = V c main_arg6 := by
    funext y
    show V c main_arg6 (((cfg2.win 2).blk t).view.emb y) = V c main_arg6 y
    refine congrArg _ (funext fun a => Fin.ext ?_)
    match a with
    | ⟨0, _⟩ => show win2_2.index t (0 : Fin 2) * 64 + 1 * (y 0).val = (y 0).val; rw [e20]; omega
    | ⟨1, _⟩ => show win2_2.index t (1 : Fin 2) * 32 + 1 * (y 1).val = (y 1).val; rw [e21]; omega
  rw [hW]
  funext j
  obtain ⟨p, q, rfl⟩ : ∃ (p : Fin 2000) (q : Fin 32), j = ix2 p q := ⟨j 0, j 1, eq_ix2 j⟩
  show scaleMM (iblk2 V c 0 t) (iblk2 V c 1 t) (V c main_arg6) (ix2 p q)
    = scaleMM (V c main_v30) (V c main_v16) (V c main_arg6) (((cfg2.win 4).blk t).view.emb (ix2 p q))
  have hemb : ((cfg2.win 4).blk t).view.emb (ix2 p q) = ix2 (blockRow ⟨t.val, ht⟩ p) q := by
    funext a; apply Fin.ext
    match a with
    | ⟨0, _⟩ => show win2_4.index t (0 : Fin 2) * 2000 + 1 * p.val = t.val * 2000 + p.val; rw [e40]; omega
    | ⟨1, _⟩ => show win2_4.index t (1 : Fin 2) * 32 + 1 * q.val = q.val; rw [e41]; omega
  rw [hemb]
  exact scaleMM_rows (blockRow ⟨t.val, ht⟩) (V c main_v30) (V c main_v16) (V c main_arg6) (iblk2 V c 0 t) (iblk2 V c 1 t)
    (fun p q => by
      show V c main_v30 (((cfg2.win 0).blk t).view.emb (ix2 p q)) = V c main_v30 (ix2 (blockRow ⟨t.val, ht⟩ p) q)
      refine congrArg _ (funext fun a => Fin.ext ?_)
      match a with
      | ⟨0, _⟩ => show win2_0.index t (0 : Fin 2) * 2000 + 1 * p.val = t.val * 2000 + p.val; rw [e00]; omega
      | ⟨1, _⟩ => show win2_0.index t (1 : Fin 2) * 64 + 1 * q.val = q.val; rw [e01]; omega)
    (fun p => by
      show V c main_v16 (((cfg2.win 1).blk t).view.emb (ix2 p (0 : Fin 1))) = V c main_v16 (ix2 (blockRow ⟨t.val, ht⟩ p) (0 : Fin 1))
      refine congrArg _ (funext fun a => Fin.ext ?_)
      match a with
      | ⟨0, _⟩ => show win2_1.index t (0 : Fin 2) * 2000 + 1 * p.val = t.val * 2000 + p.val; rw [e10]; omega
      | ⟨1, _⟩ => show win2_1.index t (1 : Fin 2) * 1 + 1 * 0 = 0; rw [e11])
    p q

/-- An index of the array is in point `t`'s block of output window 4 iff each coordinate is in the block's range on its axis. -/
theorem mem_blk_4 (t : Fin cfg2.N) (i : S100000x32.Idx) :
    i ∈ ((cfg2.win 4).blk t).view.set ↔ ∀ a : Fin 2, win2_4.index t a * S2000x32.size a ≤ (i a).val
      ∧ (i a).val < win2_4.index t a * S2000x32.size a + S2000x32.size a := by
  show i ∈ ((View.whole main_v31_0).slice (win2_4.rect t)).set ↔ _
  rw [View.set_slice_whole, Rect.mem_set_unit]
  exact Iff.rfl

/-- Every index of output window 4's array is in the block of the point its row falls under: row `r` is written back at point `r / 2000`. -/
theorem covered_4 (i : S100000x32.Idx) :
    ∃ t : Fin cfg2.N, (cfg2.win 4).flush t = true ∧ i ∈ ((cfg2.win 4).blk t).view.set := by
  have hi0 : (i 0).val < 100000 := (i 0).isLt
  have hi1 : (i 1).val < 32 := (i 1).isLt
  have hN : cfg2.N = 50 := N_2
  have hlt : (i 0).val / 2000 < cfg2.N := by rw [hN]; omega
  obtain ⟨-, -, -, -, -, -, -, -, e40, e41, -, -⟩ := idx (⟨(i 0).val / 2000, hlt⟩ : Fin cfg2.N)
  refine ⟨⟨(i 0).val / 2000, hlt⟩, flush2_4 _, ?_⟩
  rw [mem_blk_4]
  intro a
  match a with
  | ⟨0, _⟩ =>
    show win2_4.index ⟨(i 0).val / 2000, hlt⟩ (0 : Fin 2) * 2000 ≤ (i 0).val
      ∧ (i 0).val < win2_4.index ⟨(i 0).val / 2000, hlt⟩ (0 : Fin 2) * 2000 + 2000
    rw [e40]
    show (i 0).val / 2000 * 2000 ≤ (i 0).val ∧ (i 0).val < (i 0).val / 2000 * 2000 + 2000
    omega
  | ⟨1, _⟩ =>
    show win2_4.index ⟨(i 0).val / 2000, hlt⟩ (1 : Fin 2) * 32 ≤ (i 1).val
      ∧ (i 1).val < win2_4.index ⟨(i 0).val / 2000, hlt⟩ (1 : Fin 2) * 32 + 32
    rw [e41]
    omega

/-- THE ARRAY of output window 4 after the region. -/
theorem final_4 (c : Dev nD) :
    (dat2 V c).arrAt 4 cfg2.N = scaleMM (V c main_v30) (V c main_v16) (V c main_arg6) :=
  (dat2 V c).arrAt_eq_of_cover 4 _ (fun t _ => flushed_4 V c t) covered_4

/-- WHAT POINT `t` WRITES BACK to output window 5 is block `t` of `scaleMM` of the hidden array, the scale column and the head's weights. -/
theorem flushed_5 (c : Dev nD) (t : Fin cfg2.N) :
    (dat2 V c).flushed 5 t = ((cfg2.win 5).blk t).view.read (Elt Ideal)
      (scaleMM (V c main_v30) (V c main_v16) (V c main_arg8)) := by
  show (cfg2.win 5).cut (grid2.coords t) ((dat2 V c).after 5 t) = _
  rw [after2_5]
  unfold out2_5
  rw [View.canon_unit_zero hz]
  simp only [View.ld_unit_zero (S := S2000x64) hz, View.ld_unit_zero (S := S2000x1) hz, View.ld_unit_zero (S := S64x32) hz]
  rw [pay2b]
  obtain ⟨e00, e01, e10, e11, e20, e21, e30, e31, e40, e41, e50, e51⟩ := idx t
  have ht : t.val < 50 := Nat.lt_of_lt_of_eq t.isLt N_2
  have hW : iblk2 V c 3 t = V c main_arg8 := by
    funext y
    show V c main_arg8 (((cfg2.win 3).blk t).view.emb y) = V c main_arg8 y
    refine congrArg _ (funext fun a => Fin.ext ?_)
    match a with
    | ⟨0, _⟩ => show win2_3.index t (0 : Fin 2) * 64 + 1 * (y 0).val = (y 0).val; rw [e30]; omega
    | ⟨1, _⟩ => show win2_3.index t (1 : Fin 2) * 32 + 1 * (y 1).val = (y 1).val; rw [e31]; omega
  rw [hW]
  funext j
  obtain ⟨p, q, rfl⟩ : ∃ (p : Fin 2000) (q : Fin 32), j = ix2 p q := ⟨j 0, j 1, eq_ix2 j⟩
  show scaleMM (iblk2 V c 0 t) (iblk2 V c 1 t) (V c main_arg8) (ix2 p q)
    = scaleMM (V c main_v30) (V c main_v16) (V c main_arg8) (((cfg2.win 5).blk t).view.emb (ix2 p q))
  have hemb : ((cfg2.win 5).blk t).view.emb (ix2 p q) = ix2 (blockRow ⟨t.val, ht⟩ p) q := by
    funext a; apply Fin.ext
    match a with
    | ⟨0, _⟩ => show win2_5.index t (0 : Fin 2) * 2000 + 1 * p.val = t.val * 2000 + p.val; rw [e50]; omega
    | ⟨1, _⟩ => show win2_5.index t (1 : Fin 2) * 32 + 1 * q.val = q.val; rw [e51]; omega
  rw [hemb]
  exact scaleMM_rows (blockRow ⟨t.val, ht⟩) (V c main_v30) (V c main_v16) (V c main_arg8) (iblk2 V c 0 t) (iblk2 V c 1 t)
    (fun p q => by
      show V c main_v30 (((cfg2.win 0).blk t).view.emb (ix2 p q)) = V c main_v30 (ix2 (blockRow ⟨t.val, ht⟩ p) q)
      refine congrArg _ (funext fun a => Fin.ext ?_)
      match a with
      | ⟨0, _⟩ => show win2_0.index t (0 : Fin 2) * 2000 + 1 * p.val = t.val * 2000 + p.val; rw [e00]; omega
      | ⟨1, _⟩ => show win2_0.index t (1 : Fin 2) * 64 + 1 * q.val = q.val; rw [e01]; omega)
    (fun p => by
      show V c main_v16 (((cfg2.win 1).blk t).view.emb (ix2 p (0 : Fin 1))) = V c main_v16 (ix2 (blockRow ⟨t.val, ht⟩ p) (0 : Fin 1))
      refine congrArg _ (funext fun a => Fin.ext ?_)
      match a with
      | ⟨0, _⟩ => show win2_1.index t (0 : Fin 2) * 2000 + 1 * p.val = t.val * 2000 + p.val; rw [e10]; omega
      | ⟨1, _⟩ => show win2_1.index t (1 : Fin 2) * 1 + 1 * 0 = 0; rw [e11])
    p q

/-- An index of the array is in point `t`'s block of output window 5 iff each coordinate is in the block's range on its axis. -/
theorem mem_blk_5 (t : Fin cfg2.N) (i : S100000x32.Idx) :
    i ∈ ((cfg2.win 5).blk t).view.set ↔ ∀ a : Fin 2, win2_5.index t a * S2000x32.size a ≤ (i a).val
      ∧ (i a).val < win2_5.index t a * S2000x32.size a + S2000x32.size a := by
  show i ∈ ((View.whole main_v31_1).slice (win2_5.rect t)).set ↔ _
  rw [View.set_slice_whole, Rect.mem_set_unit]
  exact Iff.rfl

/-- Every index of output window 5's array is in the block of the point its row falls under: row `r` is written back at point `r / 2000`. -/
theorem covered_5 (i : S100000x32.Idx) :
    ∃ t : Fin cfg2.N, (cfg2.win 5).flush t = true ∧ i ∈ ((cfg2.win 5).blk t).view.set := by
  have hi0 : (i 0).val < 100000 := (i 0).isLt
  have hi1 : (i 1).val < 32 := (i 1).isLt
  have hN : cfg2.N = 50 := N_2
  have hlt : (i 0).val / 2000 < cfg2.N := by rw [hN]; omega
  obtain ⟨-, -, -, -, -, -, -, -, -, -, e50, e51⟩ := idx (⟨(i 0).val / 2000, hlt⟩ : Fin cfg2.N)
  refine ⟨⟨(i 0).val / 2000, hlt⟩, flush2_5 _, ?_⟩
  rw [mem_blk_5]
  intro a
  match a with
  | ⟨0, _⟩ =>
    show win2_5.index ⟨(i 0).val / 2000, hlt⟩ (0 : Fin 2) * 2000 ≤ (i 0).val
      ∧ (i 0).val < win2_5.index ⟨(i 0).val / 2000, hlt⟩ (0 : Fin 2) * 2000 + 2000
    rw [e50]
    show (i 0).val / 2000 * 2000 ≤ (i 0).val ∧ (i 0).val < (i 0).val / 2000 * 2000 + 2000
    omega
  | ⟨1, _⟩ =>
    show win2_5.index ⟨(i 0).val / 2000, hlt⟩ (1 : Fin 2) * 32 ≤ (i 1).val
      ∧ (i 1).val < win2_5.index ⟨(i 0).val / 2000, hlt⟩ (1 : Fin 2) * 32 + 32
    rw [e51]
    omega

/-- THE ARRAY of output window 5 after the region. -/
theorem final_5 (c : Dev nD) :
    (dat2 V c).arrAt 5 cfg2.N = scaleMM (V c main_v30) (V c main_v16) (V c main_arg8) :=
  (dat2 V c).arrAt_eq_of_cover 5 _ (fun t _ => flushed_5 V c t) covered_5

end Cert.KernelIdeal.Reg2

end
-- ==== Proof.KReg3.lean ====
/-
  Region 3 of the idealized kernel's @main, read for its value: the finalising kernel of the second layer: the mean, the log-deviation and the sample `mean + noise · exp log_std`.
  The grid has fifty points; point `t` stages rows `2000·t … 2000·t + 1999` of every row-shaped operand (and the whole of
  the small operands), the body stores one of the specification's row-local functions of the staged blocks (Proof/KPay.lean), and
  the pipeline writes that block back to rows `2000·t …` of the output array. Row-locality makes what point `t` writes back
  the block of the whole-array function; the fifty blocks tile the array; so the array ends holding that function of
  the arrays the region found at its entry — whatever those were (`V` is a parameter).
-/
import proofs.«170982_j54142357733691_1_alg».proof.Proof.KernelIdealFrameP
import proofs.«170982_j54142357733691_1_alg».proof.Proof.KPay
import Idealize.ShloMosaic.Lib.Pipeline.Value

set_option maxRecDepth 16384

noncomputable section

namespace Cert.KernelIdeal.Reg3

open Cert.KernelIdeal Cert.KernelIdeal.Gen Cert.KernelIdeal.GenP Cert.KernelIdeal.Pay Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The reparameterisation at an index reads its three operands at that index. -/
theorem reparam_at {s s' : Shape} (mean ls noise : s.Idx → EReal) (mean' ls' noise' : s'.Idx → EReal) (i : s.Idx) (i' : s'.Idx)
    (h1 : mean i = mean' i') (h2 : ls i = ls' i') (h3 : noise i = noise' i') :
    reparam mean ls noise i = reparam mean' ls' noise' i' := by
  unfold reparam
  rw [h1, h2, h3]

/-- Row `p` of the block of rows staged at point `t`, as a row of the array. -/
def blockRow (t : Fin 50) (p : Fin 2000) : Fin 100000 :=
  ⟨t.val * 2000 + p.val, by have := t.isLt; have := p.isLt; omega⟩

/-- The printed index maps, decided over the fifty points: a row-shaped window is at block row `t`, a small operand's window at
    its one block. -/
theorem idx : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = t.val
    ∧ win3_5.index t (1 : Fin 2) = 0
    ∧ win3_6.index t (0 : Fin 2) = t.val
    ∧ win3_6.index t (1 : Fin 2) = 0
    ∧ win3_7.index t (0 : Fin 2) = t.val
    ∧ win3_7.index t (1 : Fin 2) = 0
    ∧ win3_8.index t (0 : Fin 2) = t.val
    ∧ win3_8.index t (1 : Fin 2) = 0 :=
  (by decide +kernel : ∀ t : Fin grid3.N, _)

/-- WHAT POINT `t` WRITES BACK to output window 6 (the mean) is block `t` of `affine` of its aggregate, the scale column and its bias row. -/
theorem flushed_6 (c : Dev nD) (t : Fin cfg3.N) :
    (dat3 V c).flushed 6 t = ((cfg3.win 6).blk t).view.read (Elt Ideal)
      (affine (V c main_v43) (V c main_v17) (V c main_v45)) := by
  show (cfg3.win 6).cut (grid3.coords t) ((dat3 V c).after 6 t) = _
  rw [after3_6]
  unfold out3_6
  rw [View.canon_unit_zero hz]
  simp only [View.ld_unit_zero (S := S2000x32) hz, View.ld_unit_zero (S := S2000x1) hz, View.ld_unit_zero (S := S1x32) hz]
  rw [pay3a]
  obtain ⟨e00, e01, e10, e11, e20, e21, e30, e31, e40, e41, e50, e51, e60, e61, e70, e71, e80, e81⟩ := idx t
  have ht : t.val < 50 := Nat.lt_of_lt_of_eq t.isLt N_3
  have hB : iblk3 V c 3 t = V c main_v45 := by
    funext y
    show V c main_v45 (((cfg3.win 3).blk t).view.emb y) = V c main_v45 y
    refine congrArg _ (funext fun a => Fin.ext ?_)
    match a with
    | ⟨0, _⟩ => show win3_3.index t (0 : Fin 2) * 1 + 1 * (y 0).val = (y 0).val; rw [e30]; omega
    | ⟨1, _⟩ => show win3_3.index t (1 : Fin 2) * 32 + 1 * (y 1).val = (y 1).val; rw [e31]; omega
  rw [hB]
  funext j
  obtain ⟨p, q, rfl⟩ : ∃ (p : Fin 2000) (q : Fin 32), j = ix2 p q := ⟨j 0, j 1, eq_ix2 j⟩
  show affine (iblk3 V c 0 t) (iblk3 V c 2 t) (V c main_v45) (ix2 p q)
    = affine (V c main_v43) (V c main_v17) (V c main_v45) (((cfg3.win 6).blk t).view.emb (ix2 p q))
  have hemb : ((cfg3.win 6).blk t).view.emb (ix2 p q) = ix2 (blockRow ⟨t.val, ht⟩ p) q := by
    funext a; apply Fin.ext
    match a with
    | ⟨0, _⟩ => show win3_6.index t (0 : Fin 2) * 2000 + 1 * p.val = t.val * 2000 + p.val; rw [e60]; omega
    | ⟨1, _⟩ => show win3_6.index t (1 : Fin 2) * 32 + 1 * q.val = q.val; rw [e61]; omega
  rw [hemb]
  exact affine_rows (blockRow ⟨t.val, ht⟩) (V c main_v43) (V c main_v17) (V c main_v45) (iblk3 V c 0 t) (iblk3 V c 2 t)
    (fun p q => by
      show V c main_v43 (((cfg3.win 0).blk t).view.emb (ix2 p q)) = V c main_v43 (ix2 (blockRow ⟨t.val, ht⟩ p) q)
      refine congrArg _ (funext fun a => Fin.ext ?_)
      match a with
      | ⟨0, _⟩ => show win3_0.index t (0 : Fin 2) * 2000 + 1 * p.val = t.val * 2000 + p.val; rw [e00]; omega
      | ⟨1, _⟩ => show win3_0.index t (1 : Fin 2) * 32 + 1 * q.val = q.val; rw [e01]; omega)
    (fun p => by
      show V c main_v17 (((cfg3.win 2).blk t).view.emb (ix2 p (0 : Fin 1))) = V c main_v17 (ix2 (blockRow ⟨t.val, ht⟩ p) (0 : Fin 1))
      refine congrArg _ (funext fun a => Fin.ext ?_)
      match a with
      | ⟨0, _⟩ => show win3_2.index t (0 : Fin 2) * 2000 + 1 * p.val = t.val * 2000 + p.val; rw [e20]; omega
      | ⟨1, _⟩ => show win3_2.index t (1 : Fin 2) * 1 + 1 * 0 = 0; rw [e21])
    p q

/-- An index of the array is in point `t`'s block of output window 6 iff each coordinate is in the block's range on its axis. -/
theorem mem_blk_6 (t : Fin cfg3.N) (i : S100000x32.Idx) :
    i ∈ ((cfg3.win 6).blk t).view.set ↔ ∀ a : Fin 2, win3_6.index t a * S2000x32.size a ≤ (i a).val
      ∧ (i a).val < win3_6.index t a * S2000x32.size a + S2000x32.size a := by
  show i ∈ ((View.whole main_v47_0).slice (win3_6.rect t)).set ↔ _
  rw [View.set_slice_whole, Rect.mem_set_unit]
  exact Iff.rfl

/-- Every index of output window 6's array is in the block of the point its row falls under: row `r` is written back at point `r / 2000`. -/
theorem covered_6 (i : S100000x32.Idx) :
    ∃ t : Fin cfg3.N, (cfg3.win 6).flush t = true ∧ i ∈ ((cfg3.win 6).blk t).view.set := by
  have hi0 : (i 0).val < 100000 := (i 0).isLt
  have hi1 : (i 1).val < 32 := (i 1).isLt
  have hN : cfg3.N = 50 := N_3
  have hlt : (i 0).val / 2000 < cfg3.N := by rw [hN]; omega
  obtain ⟨-, -, -, -, -, -, -, -, -, -, -, -, e60, e61, -, -, -, -⟩ := idx (⟨(i 0).val / 2000, hlt⟩ : Fin cfg3.N)
  refine ⟨⟨(i 0).val / 2000, hlt⟩, flush3_6 _, ?_⟩
  rw [mem_blk_6]
  intro a
  match a with
  | ⟨0, _⟩ =>
    show win3_6.index ⟨(i 0).val / 2000, hlt⟩ (0 : Fin 2) * 2000 ≤ (i 0).val
      ∧ (i 0).val < win3_6.index ⟨(i 0).val / 2000, hlt⟩ (0 : Fin 2) * 2000 + 2000
    rw [e60]
    show (i 0).val / 2000 * 2000 ≤ (i 0).val ∧ (i 0).val < (i 0).val / 2000 * 2000 + 2000
    omega
  | ⟨1, _⟩ =>
    show win3_6.index ⟨(i 0).val / 2000, hlt⟩ (1 : Fin 2) * 32 ≤ (i 1).val
      ∧ (i 1).val < win3_6.index ⟨(i 0).val / 2000, hlt⟩ (1 : Fin 2) * 32 + 32
    rw [e61]
    omega

/-- THE ARRAY of output window 6 after the region. -/
theorem final_6 (c : Dev nD) :
    (dat3 V c).arrAt 6 cfg3.N = affine (V c main_v43) (V c main_v17) (V c main_v45) :=
  (dat3 V c).arrAt_eq_of_cover 6 _ (fun t _ => flushed_6 V c t) covered_6

/-- WHAT POINT `t` WRITES BACK to output window 7 (the log-deviation) is block `t` of `affine` of its aggregate, the scale column and its bias row. -/
theorem flushed_7 (c : Dev nD) (t : Fin cfg3.N) :
    (dat3 V c).flushed 7 t = ((cfg3.win 7).blk t).view.read (Elt Ideal)
      (affine (V c main_v44) (V c main_v17) (V c main_v46)) := by
  show (cfg3.win 7).cut (grid3.coords t) ((dat3 V c).after 7 t) = _
  rw [after3_7]
  unfold out3_7
  rw [View.canon_unit_zero hz]
  simp only [View.ld_unit_zero (S := S2000x32) hz, View.ld_unit_zero (S := S2000x1) hz, View.ld_unit_zero (S := S1x32) hz]
  rw [pay3b]
  obtain ⟨e00, e01, e10, e11, e20, e21, e30, e31, e40, e41, e50, e51, e60, e61, e70, e71, e80, e81⟩ := idx t
  have ht : t.val < 50 := Nat.lt_of_lt_of_eq t.isLt N_3
  have hB : iblk3 V c 4 t = V c main_v46 := by
    funext y
    show V c main_v46 (((cfg3.win 4).blk t).view.emb y) = V c main_v46 y
    refine congrArg _ (funext fun a => Fin.ext ?_)
    match a with
    | ⟨0, _⟩ => show win3_4.index t (0 : Fin 2) * 1 + 1 * (y 0).val = (y 0).val; rw [e40]; omega
    | ⟨1, _⟩ => show win3_4.index t (1 : Fin 2) * 32 + 1 * (y 1).val = (y 1).val; rw [e41]; omega
  rw [hB]
  funext j
  obtain ⟨p, q, rfl⟩ : ∃ (p : Fin 2000) (q : Fin 32), j = ix2 p q := ⟨j 0, j 1, eq_ix2 j⟩
  show affine (iblk3 V c 1 t) (iblk3 V c 2 t) (V c main_v46) (ix2 p q)
    = affine (V c main_v44) (V c main_v17) (V c main_v46) (((cfg3.win 7).blk t).view.emb (ix2 p q))
  have hemb : ((cfg3.win 7).blk t).view.emb (ix2 p q) = ix2 (blockRow ⟨t.val, ht⟩ p) q := by
    funext a; apply Fin.ext
    match a with
    | ⟨0, _⟩ => show win3_7.index t (0 : Fin 2) * 2000 + 1 * p.val = t.val * 2000 + p.val; rw [e70]; omega
    | ⟨1, _⟩ => show win3_7.index t (1 : Fin 2) * 32 + 1 * q.val = q.val; rw [e71]; omega
  rw [hemb]
  exact affine_rows (blockRow ⟨t.val, ht⟩) (V c main_v44) (V c main_v17) (V c main_v46) (iblk3 V c 1 t) (iblk3 V c 2 t)
    (fun p q => by
      show V c main_v44 (((cfg3.win 1).blk t).view.emb (ix2 p q)) = V c main_v44 (ix2 (blockRow ⟨t.val, ht⟩ p) q)
      refine congrArg _ (funext fun a => Fin.ext ?_)
      match a with
      | ⟨0, _⟩ => show win3_1.index t (0 : Fin 2) * 2000 + 1 * p.val = t.val * 2000 + p.val; rw [e10]; omega
      | ⟨1, _⟩ => show win3_1.index t (1 : Fin 2) * 32 + 1 * q.val = q.val; rw [e11]; omega)
    (fun p => by
      show V c main_v17 (((cfg3.win 2).blk t).view.emb (ix2 p (0 : Fin 1))) = V c main_v17 (ix2 (blockRow ⟨t.val, ht⟩ p) (0 : Fin 1))
      refine congrArg _ (funext fun a => Fin.ext ?_)
      match a with
      | ⟨0, _⟩ => show win3_2.index t (0 : Fin 2) * 2000 + 1 * p.val = t.val * 2000 + p.val; rw [e20]; omega
      | ⟨1, _⟩ => show win3_2.index t (1 : Fin 2) * 1 + 1 * 0 = 0; rw [e21])
    p q

/-- An index of the array is in point `t`'s block of output window 7 iff each coordinate is in the block's range on its axis. -/
theorem mem_blk_7 (t : Fin cfg3.N) (i : S100000x32.Idx) :
    i ∈ ((cfg3.win 7).blk t).view.set ↔ ∀ a : Fin 2, win3_7.index t a * S2000x32.size a ≤ (i a).val
      ∧ (i a).val < win3_7.index t a * S2000x32.size a + S2000x32.size a := by
  show i ∈ ((View.whole main_v47_1).slice (win3_7.rect t)).set ↔ _
  rw [View.set_slice_whole, Rect.mem_set_unit]
  exact Iff.rfl

/-- Every index of output window 7's array is in the block of the point its row falls under: row `r` is written back at point `r / 2000`. -/
theorem covered_7 (i : S100000x32.Idx) :
    ∃ t : Fin cfg3.N, (cfg3.win 7).flush t = true ∧ i ∈ ((cfg3.win 7).blk t).view.set := by
  have hi0 : (i 0).val < 100000 := (i 0).isLt
  have hi1 : (i 1).val < 32 := (i 1).isLt
  have hN : cfg3.N = 50 := N_3
  have hlt : (i 0).val / 2000 < cfg3.N := by rw [hN]; omega
  obtain ⟨-, -, -, -, -, -, -, -, -, -, -, -, -, -, e70, e71, -, -⟩ := idx (⟨(i 0).val / 2000, hlt⟩ : Fin cfg3.N)
  refine ⟨⟨(i 0).val / 2000, hlt⟩, flush3_7 _, ?_⟩
  rw [mem_blk_7]
  intro a
  match a with
  | ⟨0, _⟩ =>
    show win3_7.index ⟨(i 0).val / 2000, hlt⟩ (0 : Fin 2) * 2000 ≤ (i 0).val
      ∧ (i 0).val < win3_7.index ⟨(i 0).val / 2000, hlt⟩ (0 : Fin 2) * 2000 + 2000
    rw [e70]
    show (i 0).val / 2000 * 2000 ≤ (i 0).val ∧ (i 0).val < (i 0).val / 2000 * 2000 + 2000
    omega
  | ⟨1, _⟩ =>
    show win3_7.index ⟨(i 0).val / 2000, hlt⟩ (1 : Fin 2) * 32 ≤ (i 1).val
      ∧ (i 1).val < win3_7.index ⟨(i 0).val / 2000, hlt⟩ (1 : Fin 2) * 32 + 32
    rw [e71]
    omega

/-- THE ARRAY of output window 7 after the region. -/
theorem final_7 (c : Dev nD) :
    (dat3 V c).arrAt 7 cfg3.N = affine (V c main_v44) (V c main_v17) (V c main_v46) :=
  (dat3 V c).arrAt_eq_of_cover 7 _ (fun t _ => flushed_7 V c t) covered_7

set_option maxHeartbeats 1000000 in  -- three block reads and two whole-operand reads in one declaration
/-- WHAT POINT `t` WRITES BACK to output window 8 (the sample) is block `t` of the reparameterisation of the two affine results and the noise. -/
theorem flushed_8 (c : Dev nD) (t : Fin cfg3.N) :
    (dat3 V c).flushed 8 t = ((cfg3.win 8).blk t).view.read (Elt Ideal)
      (reparam (affine (V c main_v43) (V c main_v17) (V c main_v45)) (affine (V c main_v44) (V c main_v17) (V c main_v46)) (V c main_arg3)) := by
  show (cfg3.win 8).cut (grid3.coords t) ((dat3 V c).after 8 t) = _
  rw [after3_8]
  unfold out3_8
  rw [View.canon_unit_zero hz]
  simp only [View.ld_unit_zero (S := S2000x32) hz, View.ld_unit_zero (S := S2000x1) hz, View.ld_unit_zero (S := S1x32) hz]
  rw [pay3c]
  obtain ⟨e00, e01, e10, e11, e20, e21, e30, e31, e40, e41, e50, e51, e60, e61, e70, e71, e80, e81⟩ := idx t
  have ht : t.val < 50 := Nat.lt_of_lt_of_eq t.isLt N_3
  have hB3 : iblk3 V c 3 t = V c main_v45 := by
    funext y
    show V c main_v45 (((cfg3.win 3).blk t).view.emb y) = V c main_v45 y
    refine congrArg _ (funext fun a => Fin.ext ?_)
    match a with
    | ⟨0, _⟩ => show win3_3.index t (0 : Fin 2) * 1 + 1 * (y 0).val = (y 0).val; rw [e30]; omega
    | ⟨1, _⟩ => show win3_3.index t (1 : Fin 2) * 32 + 1 * (y 1).val = (y 1).val; rw [e31]; omega
  have hB4 : iblk3 V c 4 t = V c main_v46 := by
    funext y
    show V c main_v46 (((cfg3.win 4).blk t).view.emb y) = V c main_v46 y
    refine congrArg _ (funext fun a => Fin.ext ?_)
    match a with
    | ⟨0, _⟩ => show win3_4.index t (0 : Fin 2) * 1 + 1 * (y 0).val = (y 0).val; rw [e40]; omega
    | ⟨1, _⟩ => show win3_4.index t (1 : Fin 2) * 32 + 1 * (y 1).val = (y 1).val; rw [e41]; omega
  rw [hB3, hB4]
  funext j
  obtain ⟨p, q, rfl⟩ : ∃ (p : Fin 2000) (q : Fin 32), j = ix2 p q := ⟨j 0, j 1, eq_ix2 j⟩
  show reparam (affine (iblk3 V c 0 t) (iblk3 V c 2 t) (V c main_v45)) (affine (iblk3 V c 1 t) (iblk3 V c 2 t) (V c main_v46)) (iblk3 V c 5 t) (ix2 p q)
    = reparam (affine (V c main_v43) (V c main_v17) (V c main_v45)) (affine (V c main_v44) (V c main_v17) (V c main_v46)) (V c main_arg3)
        (((cfg3.win 8).blk t).view.emb (ix2 p q))
  have hemb : ((cfg3.win 8).blk t).view.emb (ix2 p q) = ix2 (blockRow ⟨t.val, ht⟩ p) q := by
    funext a; apply Fin.ext
    match a with
    | ⟨0, _⟩ => show win3_8.index t (0 : Fin 2) * 2000 + 1 * p.val = t.val * 2000 + p.val; rw [e80]; omega
    | ⟨1, _⟩ => show win3_8.index t (1 : Fin 2) * 32 + 1 * q.val = q.val; rw [e81]; omega
  rw [hemb]
  have hcol : ∀ p : Fin 2000, iblk3 V c 2 t (ix2 p (0 : Fin 1)) = V c main_v17 (ix2 (blockRow ⟨t.val, ht⟩ p) (0 : Fin 1)) :=
    (fun p => by
      show V c main_v17 (((cfg3.win 2).blk t).view.emb (ix2 p (0 : Fin 1))) = V c main_v17 (ix2 (blockRow ⟨t.val, ht⟩ p) (0 : Fin 1))
      refine congrArg _ (funext fun a => Fin.ext ?_)
      match a with
      | ⟨0, _⟩ => show win3_2.index t (0 : Fin 2) * 2000 + 1 * p.val = t.val * 2000 + p.val; rw [e20]; omega
      | ⟨1, _⟩ => show win3_2.index t (1 : Fin 2) * 1 + 1 * 0 = 0; rw [e21])
  have hmean : affine (iblk3 V c 0 t) (iblk3 V c 2 t) (V c main_v45) (ix2 p q)
      = affine (V c main_v43) (V c main_v17) (V c main_v45) (ix2 (blockRow ⟨t.val, ht⟩ p) q) :=
    affine_rows (n := 100000) (n' := 2000) (c := 32) (blockRow ⟨t.val, ht⟩) (V c main_v43) (V c main_v17) (V c main_v45) (iblk3 V c 0 t) (iblk3 V c 2 t)
    (fun p q => by
      show V c main_v43 (((cfg3.win 0).blk t).view.emb (ix2 p q)) = V c main_v43 (ix2 (blockRow ⟨t.val, ht⟩ p) q)
      refine congrArg _ (funext fun a => Fin.ext ?_)
      match a with
      | ⟨0, _⟩ => show win3_0.index t (0 : Fin 2) * 2000 + 1 * p.val = t.val * 2000 + p.val; rw [e00]; omega
      | ⟨1, _⟩ => show win3_0.index t (1 : Fin 2) * 32 + 1 * q.val = q.val; rw [e01]; omega)
    hcol p q
  have hls : affine (iblk3 V c 1 t) (iblk3 V c 2 t) (V c main_v46) (ix2 p q)
      = affine (V c main_v44) (V c main_v17) (V c main_v46) (ix2 (blockRow ⟨t.val, ht⟩ p) q) :=
    affine_rows (n := 100000) (n' := 2000) (c := 32) (blockRow ⟨t.val, ht⟩) (V c main_v44) (V c main_v17) (V c main_v46) (iblk3 V c 1 t) (iblk3 V c 2 t)
    (fun p q => by
      show V c main_v44 (((cfg3.win 1).blk t).view.emb (ix2 p q)) = V c main_v44 (ix2 (blockRow ⟨t.val, ht⟩ p) q)
      refine congrArg _ (funext fun a => Fin.ext ?_)
      match a with
      | ⟨0, _⟩ => show win3_1.index t (0 : Fin 2) * 2000 + 1 * p.val = t.val * 2000 + p.val; rw [e10]; omega
      | ⟨1, _⟩ => show win3_1.index t (1 : Fin 2) * 32 + 1 * q.val = q.val; rw [e11]; omega)
    hcol p q
  have hnoise : iblk3 V c 5 t (ix2 p q) = V c main_arg3 (ix2 (blockRow ⟨t.val, ht⟩ p) q) := by
    show V c main_arg3 (((cfg3.win 5).blk t).view.emb (ix2 p q)) = V c main_arg3 (ix2 (blockRow ⟨t.val, ht⟩ p) q)
    refine congrArg _ (funext fun a => Fin.ext ?_)
    match a with
    | ⟨0, _⟩ => show win3_5.index t (0 : Fin 2) * 2000 + 1 * p.val = t.val * 2000 + p.val; rw [e50]; omega
    | ⟨1, _⟩ => show win3_5.index t (1 : Fin 2) * 32 + 1 * q.val = q.val; rw [e51]; omega
  exact reparam_at (s := ⟨2, ![2000, 32]⟩) (s' := ⟨2, ![100000, 32]⟩) _ _ _ _ _ _ (ix2 p q) (ix2 (blockRow ⟨t.val, ht⟩ p) q) hmean hls hnoise

/-- An index of the array is in point `t`'s block of output window 8 iff each coordinate is in the block's range on its axis. -/
theorem mem_blk_8 (t : Fin cfg3.N) (i : S100000x32.Idx) :
    i ∈ ((cfg3.win 8).blk t).view.set ↔ ∀ a : Fin 2, win3_8.index t a * S2000x32.size a ≤ (i a).val
      ∧ (i a).val < win3_8.index t a * S2000x32.size a + S2000x32.size a := by
  show i ∈ ((View.whole main_v47_2).slice (win3_8.rect t)).set ↔ _
  rw [View.set_slice_whole, Rect.mem_set_unit]
  exact Iff.rfl

/-- Every index of output window 8's array is in the block of the point its row falls under: row `r` is written back at point `r / 2000`. -/
theorem covered_8 (i : S100000x32.Idx) :
    ∃ t : Fin cfg3.N, (cfg3.win 8).flush t = true ∧ i ∈ ((cfg3.win 8).blk t).view.set := by
  have hi0 : (i 0).val < 100000 := (i 0).isLt
  have hi1 : (i 1).val < 32 := (i 1).isLt
  have hN : cfg3.N = 50 := N_3
  have hlt : (i 0).val / 2000 < cfg3.N := by rw [hN]; omega
  obtain ⟨-, -, -, -, -, -, -, -, -, -, -, -, -, -, -, -, e80, e81⟩ := idx (⟨(i 0).val / 2000, hlt⟩ : Fin cfg3.N)
  refine ⟨⟨(i 0).val / 2000, hlt⟩, flush3_8 _, ?_⟩
  rw [mem_blk_8]
  intro a
  match a with
  | ⟨0, _⟩ =>
    show win3_8.index ⟨(i 0).val / 2000, hlt⟩ (0 : Fin 2) * 2000 ≤ (i 0).val
      ∧ (i 0).val < win3_8.index ⟨(i 0).val / 2000, hlt⟩ (0 : Fin 2) * 2000 + 2000
    rw [e80]
    show (i 0).val / 2000 * 2000 ≤ (i 0).val ∧ (i 0).val < (i 0).val / 2000 * 2000 + 2000
    omega
  | ⟨1, _⟩ =>
    show win3_8.index ⟨(i 0).val / 2000, hlt⟩ (1 : Fin 2) * 32 ≤ (i 1).val
      ∧ (i 1).val < win3_8.index ⟨(i 0).val / 2000, hlt⟩ (1 : Fin 2) * 32 + 32
    rw [e81]
    omega

/-- THE ARRAY of output window 8 after the region. -/
theorem final_8 (c : Dev nD) :
    (dat3 V c).arrAt 8 cfg3.N
      = reparam (affine (V c main_v43) (V c main_v17) (V c main_v45)) (affine (V c main_v44) (V c main_v17) (V c main_v46)) (V c main_arg3) :=
  (dat3 V c).arrAt_eq_of_cover 8 _ (fun t _ => flushed_8 V c t) covered_8

end Cert.KernelIdeal.Reg3

end
-- ==== Proof.KVal.lean ====
/-
  What the idealized kernel's three results hold after the run, as functions of the ten argument arrays.

  @main is seven segments: host operations, the first layer's product kernel, host operations (the first edge aggregation), the
  first layer's finalising kernel, the second layer's two product kernels in one call, host operations (the second edge aggregation, on
  the two heads' products laid side by side, then cut apart again), and the last finalising kernel. The buffer contents at
  each boundary are a fold over the launch memory (the generated `W1 … W7`). This module walks the fold forward and reads
  every buffer a later segment needs, at every boundary, as a named function of the arguments: a host stretch by applying its
  operations to what the previous boundary holds; a kernel region by the region's value lemma (Proof/KReg0–3.lean: the output array is
  the specification's row-local function of the arrays the region found), every other buffer passing through unchanged.
-/
import proofs.«170982_j54142357733691_1_alg».proof.Proof.KRun
import proofs.«170982_j54142357733691_1_alg».proof.Proof.KDefs
import proofs.«170982_j54142357733691_1_alg».proof.Proof.KReg0
import proofs.«170982_j54142357733691_1_alg».proof.Proof.KReg1
import proofs.«170982_j54142357733691_1_alg».proof.Proof.KReg2
import proofs.«170982_j54142357733691_1_alg».proof.Proof.KReg3
import Idealize.ShloMosaic.Lib.StableHlo.Run

set_option maxRecDepth 16384

noncomputable section

namespace Cert.KernelIdeal.Val

open Cert.KernelIdeal Cert.KernelIdeal.Gen Cert.KernelIdeal.GenP Cert.Spec
open Idealize.ShloMosaic Idealize.ShloMosaic.TcCoe Idealize.ShloMosaic.StableHlo Idealize.SL.Sem
open Idealize.ShloMosaic.Pipeline (Dat)

/-! ## The fold, boundary by boundary -/

section Fold

variable (m : (ℓ : Loc nD τ sig) → Buf (Elt Ideal) ℓ) (ρ : Dev nD → PrngReg) (c : Dev nD)

theorem W1_arg0 : W1 m ρ c (Proc.devRef .tc main_arg0) = (m ((c : Thread nD τ).loc main_arg0)) := by
  show StableHlo.after hostOps0 (W0 m ρ c) (Proc.devRef .tc main_arg0) = _
  after_results

theorem W1_arg1 : W1 m ρ c (Proc.devRef .tc main_arg1) = (m ((c : Thread nD τ).loc main_arg1)) := by
  show StableHlo.after hostOps0 (W0 m ρ c) (Proc.devRef .tc main_arg1) = _
  after_results

theorem W1_arg2 : W1 m ρ c (Proc.devRef .tc main_arg2) = (m ((c : Thread nD τ).loc main_arg2)) := by
  show StableHlo.after hostOps0 (W0 m ρ c) (Proc.devRef .tc main_arg2) = _
  after_results

theorem W1_arg3 : W1 m ρ c (Proc.devRef .tc main_arg3) = (m ((c : Thread nD τ).loc main_arg3)) := by
  show StableHlo.after hostOps0 (W0 m ρ c) (Proc.devRef .tc main_arg3) = _
  after_results

theorem W1_arg4 : W1 m ρ c (Proc.devRef .tc main_arg4) = (m ((c : Thread nD τ).loc main_arg4)) := by
  show StableHlo.after hostOps0 (W0 m ρ c) (Proc.devRef .tc main_arg4) = _
  after_results

theorem W1_arg5 : W1 m ρ c (Proc.devRef .tc main_arg5) = (m ((c : Thread nD τ).loc main_arg5)) := by
  show StableHlo.after hostOps0 (W0 m ρ c) (Proc.devRef .tc main_arg5) = _
  after_results

theorem W1_arg6 : W1 m ρ c (Proc.devRef .tc main_arg6) = (m ((c : Thread nD τ).loc main_arg6)) := by
  show StableHlo.after hostOps0 (W0 m ρ c) (Proc.devRef .tc main_arg6) = _
  after_results

theorem W1_arg7 : W1 m ρ c (Proc.devRef .tc main_arg7) = (m ((c : Thread nD τ).loc main_arg7)) := by
  show StableHlo.after hostOps0 (W0 m ρ c) (Proc.devRef .tc main_arg7) = _
  after_results

theorem W1_arg8 : W1 m ρ c (Proc.devRef .tc main_arg8) = (m ((c : Thread nD τ).loc main_arg8)) := by
  show StableHlo.after hostOps0 (W0 m ρ c) (Proc.devRef .tc main_arg8) = _
  after_results

theorem W1_arg9 : W1 m ρ c (Proc.devRef .tc main_arg9) = (m ((c : Thread nD τ).loc main_arg9)) := by
  show StableHlo.after hostOps0 (W0 m ρ c) (Proc.devRef .tc main_arg9) = _
  after_results

theorem W1_v16 : W1 m ρ c (Proc.devRef .tc main_v16) = (degCol (m ((c : Thread nD τ).loc main_arg1))) := by
  show StableHlo.after hostOps0 (W0 m ρ c) (Proc.devRef .tc main_v16) = _
  after_results
  rfl

theorem W1_v17 : W1 m ρ c (Proc.devRef .tc main_v17) = (degCol (m ((c : Thread nD τ).loc main_arg2))) := by
  show StableHlo.after hostOps0 (W0 m ρ c) (Proc.devRef .tc main_v17) = _
  after_results
  rfl

theorem W2_v18 : W2 m ρ c (Proc.devRef .tc main_v18) = (h1 (m ((c : Thread nD τ).loc main_arg0)) (m ((c : Thread nD τ).loc main_arg1)) (m ((c : Thread nD τ).loc main_arg4))) := by
  refine (W2_arr m ρ c 3).trans ((Reg0.final_3 (V1 m ρ) c).trans ?_)
  show scaleMM (W1 m ρ c (Proc.devRef .tc main_arg0)) (W1 m ρ c (Proc.devRef .tc main_v16)) (W1 m ρ c (Proc.devRef .tc main_arg4)) = _
  rw [W1_arg0, W1_v16, W1_arg4]
  rfl

theorem W2_arg1 : W2 m ρ c (Proc.devRef .tc main_arg1) = (m ((c : Thread nD τ).loc main_arg1)) := (W2_of_ne m ρ c main_arg1 (by decide)).trans (W1_arg1 m ρ c)

theorem W2_arg2 : W2 m ρ c (Proc.devRef .tc main_arg2) = (m ((c : Thread nD τ).loc main_arg2)) := (W2_of_ne m ρ c main_arg2 (by decide)).trans (W1_arg2 m ρ c)

theorem W2_arg3 : W2 m ρ c (Proc.devRef .tc main_arg3) = (m ((c : Thread nD τ).loc main_arg3)) := (W2_of_ne m ρ c main_arg3 (by decide)).trans (W1_arg3 m ρ c)

theorem W2_arg5 : W2 m ρ c (Proc.devRef .tc main_arg5) = (m ((c : Thread nD τ).loc main_arg5)) := (W2_of_ne m ρ c main_arg5 (by decide)).trans (W1_arg5 m ρ c)

theorem W2_arg6 : W2 m ρ c (Proc.devRef .tc main_arg6) = (m ((c : Thread nD τ).loc main_arg6)) := (W2_of_ne m ρ c main_arg6 (by decide)).trans (W1_arg6 m ρ c)

theorem W2_arg7 : W2 m ρ c (Proc.devRef .tc main_arg7) = (m ((c : Thread nD τ).loc main_arg7)) := (W2_of_ne m ρ c main_arg7 (by decide)).trans (W1_arg7 m ρ c)

theorem W2_arg8 : W2 m ρ c (Proc.devRef .tc main_arg8) = (m ((c : Thread nD τ).loc main_arg8)) := (W2_of_ne m ρ c main_arg8 (by decide)).trans (W1_arg8 m ρ c)

theorem W2_arg9 : W2 m ρ c (Proc.devRef .tc main_arg9) = (m ((c : Thread nD τ).loc main_arg9)) := (W2_of_ne m ρ c main_arg9 (by decide)).trans (W1_arg9 m ρ c)

theorem W2_v16 : W2 m ρ c (Proc.devRef .tc main_v16) = (degCol (m ((c : Thread nD τ).loc main_arg1))) := ((W2_arr m ρ c 1).trans (((dat0 (V1 m ρ) c).arrAt_in 1 rfl _).trans (A_eq0 (V1 m ρ) c 1))).trans (W1_v16 m ρ c)

theorem W2_v17 : W2 m ρ c (Proc.devRef .tc main_v17) = (degCol (m ((c : Thread nD τ).loc main_arg2))) := (W2_of_ne m ρ c main_v17 (by decide)).trans (W1_v17 m ρ c)

set_option maxHeartbeats 2000000 in  -- a stretch of host operations with several consumers per intermediate result
theorem W3_v28 : W3 m ρ c (Proc.devRef .tc main_v28) = (agg64 (m ((c : Thread nD τ).loc main_arg1)) (m ((c : Thread nD τ).loc main_arg2)) (h1 (m ((c : Thread nD τ).loc main_arg0)) (m ((c : Thread nD τ).loc main_arg1)) (m ((c : Thread nD τ).loc main_arg4)))) := by
  show StableHlo.after hostOps1 (W2 m ρ c) (Proc.devRef .tc main_v28) = _
  after_results_simp
  rw [W2_v18, W2_arg1, W2_arg2]
  rfl

theorem W3_v29 : W3 m ρ c (Proc.devRef .tc main_v29) = (row64 (m ((c : Thread nD τ).loc main_arg5))) := by
  show StableHlo.after hostOps1 (W2 m ρ c) (Proc.devRef .tc main_v29) = _
  after_results
  rw [W2_arg5]
  rfl

theorem W3_arg1 : W3 m ρ c (Proc.devRef .tc main_arg1) = (m ((c : Thread nD τ).loc main_arg1)) := by
  show StableHlo.after hostOps1 (W2 m ρ c) (Proc.devRef .tc main_arg1) = _
  after_results
  exact W2_arg1 m ρ c

theorem W3_arg2 : W3 m ρ c (Proc.devRef .tc main_arg2) = (m ((c : Thread nD τ).loc main_arg2)) := by
  show StableHlo.after hostOps1 (W2 m ρ c) (Proc.devRef .tc main_arg2) = _
  after_results
  exact W2_arg2 m ρ c

theorem W3_arg3 : W3 m ρ c (Proc.devRef .tc main_arg3) = (m ((c : Thread nD τ).loc main_arg3)) := by
  show StableHlo.after hostOps1 (W2 m ρ c) (Proc.devRef .tc main_arg3) = _
  after_results
  exact W2_arg3 m ρ c

theorem W3_arg6 : W3 m ρ c (Proc.devRef .tc main_arg6) = (m ((c : Thread nD τ).loc main_arg6)) := by
  show StableHlo.after hostOps1 (W2 m ρ c) (Proc.devRef .tc main_arg6) = _
  after_results
  exact W2_arg6 m ρ c

theorem W3_arg7 : W3 m ρ c (Proc.devRef .tc main_arg7) = (m ((c : Thread nD τ).loc main_arg7)) := by
  show StableHlo.after hostOps1 (W2 m ρ c) (Proc.devRef .tc main_arg7) = _
  after_results
  exact W2_arg7 m ρ c

theorem W3_arg8 : W3 m ρ c (Proc.devRef .tc main_arg8) = (m ((c : Thread nD τ).loc main_arg8)) := by
  show StableHlo.after hostOps1 (W2 m ρ c) (Proc.devRef .tc main_arg8) = _
  after_results
  exact W2_arg8 m ρ c

theorem W3_arg9 : W3 m ρ c (Proc.devRef .tc main_arg9) = (m ((c : Thread nD τ).loc main_arg9)) := by
  show StableHlo.after hostOps1 (W2 m ρ c) (Proc.devRef .tc main_arg9) = _
  after_results
  exact W2_arg9 m ρ c

theorem W3_v16 : W3 m ρ c (Proc.devRef .tc main_v16) = (degCol (m ((c : Thread nD τ).loc main_arg1))) := by
  show StableHlo.after hostOps1 (W2 m ρ c) (Proc.devRef .tc main_v16) = _
  after_results
  exact W2_v16 m ρ c

theorem W3_v17 : W3 m ρ c (Proc.devRef .tc main_v17) = (degCol (m ((c : Thread nD τ).loc main_arg2))) := by
  show StableHlo.after hostOps1 (W2 m ρ c) (Proc.devRef .tc main_v17) = _
  after_results
  exact W2_v17 m ρ c

theorem W4_v30 : W4 m ρ c (Proc.devRef .tc main_v30) = (hh (m ((c : Thread nD τ).loc main_arg0)) (m ((c : Thread nD τ).loc main_arg1)) (m ((c : Thread nD τ).loc main_arg2)) (m ((c : Thread nD τ).loc main_arg4)) (m ((c : Thread nD τ).loc main_arg5))) := by
  refine (W4_arr m ρ c 3).trans ((Reg1.final_3 (V3 m ρ) c).trans ?_)
  show relu (affine (W3 m ρ c (Proc.devRef .tc main_v28)) (W3 m ρ c (Proc.devRef .tc main_v17)) (W3 m ρ c (Proc.devRef .tc main_v29))) = _
  rw [W3_v28, W3_v17, W3_v29]
  rfl

theorem W4_arg1 : W4 m ρ c (Proc.devRef .tc main_arg1) = (m ((c : Thread nD τ).loc main_arg1)) := (W4_of_ne m ρ c main_arg1 (by decide)).trans (W3_arg1 m ρ c)

theorem W4_arg2 : W4 m ρ c (Proc.devRef .tc main_arg2) = (m ((c : Thread nD τ).loc main_arg2)) := (W4_of_ne m ρ c main_arg2 (by decide)).trans (W3_arg2 m ρ c)

theorem W4_arg3 : W4 m ρ c (Proc.devRef .tc main_arg3) = (m ((c : Thread nD τ).loc main_arg3)) := (W4_of_ne m ρ c main_arg3 (by decide)).trans (W3_arg3 m ρ c)

theorem W4_arg6 : W4 m ρ c (Proc.devRef .tc main_arg6) = (m ((c : Thread nD τ).loc main_arg6)) := (W4_of_ne m ρ c main_arg6 (by decide)).trans (W3_arg6 m ρ c)

theorem W4_arg7 : W4 m ρ c (Proc.devRef .tc main_arg7) = (m ((c : Thread nD τ).loc main_arg7)) := (W4_of_ne m ρ c main_arg7 (by decide)).trans (W3_arg7 m ρ c)

theorem W4_arg8 : W4 m ρ c (Proc.devRef .tc main_arg8) = (m ((c : Thread nD τ).loc main_arg8)) := (W4_of_ne m ρ c main_arg8 (by decide)).trans (W3_arg8 m ρ c)

theorem W4_arg9 : W4 m ρ c (Proc.devRef .tc main_arg9) = (m ((c : Thread nD τ).loc main_arg9)) := (W4_of_ne m ρ c main_arg9 (by decide)).trans (W3_arg9 m ρ c)

theorem W4_v16 : W4 m ρ c (Proc.devRef .tc main_v16) = (degCol (m ((c : Thread nD τ).loc main_arg1))) := (W4_of_ne m ρ c main_v16 (by decide)).trans (W3_v16 m ρ c)

theorem W4_v17 : W4 m ρ c (Proc.devRef .tc main_v17) = (degCol (m ((c : Thread nD τ).loc main_arg2))) := ((W4_arr m ρ c 1).trans (((dat1 (V3 m ρ) c).arrAt_in 1 rfl _).trans (A_eq1 (V3 m ρ) c 1))).trans (W3_v17 m ρ c)

theorem W5_v31_0 : W5 m ρ c (Proc.devRef .tc main_v31_0) = (preM (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) := by
  refine (W5_arr m ρ c 4).trans ((Reg2.final_4 (V4 m ρ) c).trans ?_)
  show scaleMM (W4 m ρ c (Proc.devRef .tc main_v30)) (W4 m ρ c (Proc.devRef .tc main_v16)) (W4 m ρ c (Proc.devRef .tc main_arg6)) = _
  rw [W4_v30, W4_v16, W4_arg6]
  rfl

theorem W5_v31_1 : W5 m ρ c (Proc.devRef .tc main_v31_1) = (preM (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8))) := by
  refine (W5_arr m ρ c 5).trans ((Reg2.final_5 (V4 m ρ) c).trans ?_)
  show scaleMM (W4 m ρ c (Proc.devRef .tc main_v30)) (W4 m ρ c (Proc.devRef .tc main_v16)) (W4 m ρ c (Proc.devRef .tc main_arg8)) = _
  rw [W4_v30, W4_v16, W4_arg8]
  rfl

theorem W5_arg1 : W5 m ρ c (Proc.devRef .tc main_arg1) = (m ((c : Thread nD τ).loc main_arg1)) := (W5_of_ne m ρ c main_arg1 (by decide)).trans (W4_arg1 m ρ c)

theorem W5_arg2 : W5 m ρ c (Proc.devRef .tc main_arg2) = (m ((c : Thread nD τ).loc main_arg2)) := (W5_of_ne m ρ c main_arg2 (by decide)).trans (W4_arg2 m ρ c)

theorem W5_arg3 : W5 m ρ c (Proc.devRef .tc main_arg3) = (m ((c : Thread nD τ).loc main_arg3)) := (W5_of_ne m ρ c main_arg3 (by decide)).trans (W4_arg3 m ρ c)

theorem W5_arg7 : W5 m ρ c (Proc.devRef .tc main_arg7) = (m ((c : Thread nD τ).loc main_arg7)) := (W5_of_ne m ρ c main_arg7 (by decide)).trans (W4_arg7 m ρ c)

theorem W5_arg9 : W5 m ρ c (Proc.devRef .tc main_arg9) = (m ((c : Thread nD τ).loc main_arg9)) := (W5_of_ne m ρ c main_arg9 (by decide)).trans (W4_arg9 m ρ c)

theorem W5_v17 : W5 m ρ c (Proc.devRef .tc main_v17) = (degCol (m ((c : Thread nD τ).loc main_arg2))) := (W5_of_ne m ρ c main_v17 (by decide)).trans (W4_v17 m ρ c)

set_option maxHeartbeats 2000000 in  -- a stretch of host operations with several consumers per intermediate result
theorem W6_v43 : W6 m ρ c (Proc.devRef .tc main_v43) = (colsLo (g2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)))) := by
  show StableHlo.after hostOps3 (W5 m ρ c) (Proc.devRef .tc main_v43) = _
  after_results_simp
  rw [W5_v31_0, W5_v31_1, W5_arg1, W5_arg2]
  rfl

set_option maxHeartbeats 2000000 in  -- a stretch of host operations with several consumers per intermediate result
theorem W6_v44 : W6 m ρ c (Proc.devRef .tc main_v44) = (colsHi (g2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)))) := by
  show StableHlo.after hostOps3 (W5 m ρ c) (Proc.devRef .tc main_v44) = _
  after_results_simp
  rw [W5_v31_0, W5_v31_1, W5_arg1, W5_arg2]
  rfl

theorem W6_v45 : W6 m ρ c (Proc.devRef .tc main_v45) = (row32 (m ((c : Thread nD τ).loc main_arg7))) := by
  show StableHlo.after hostOps3 (W5 m ρ c) (Proc.devRef .tc main_v45) = _
  after_results
  rw [W5_arg7]
  rfl

theorem W6_v46 : W6 m ρ c (Proc.devRef .tc main_v46) = (row32 (m ((c : Thread nD τ).loc main_arg9))) := by
  show StableHlo.after hostOps3 (W5 m ρ c) (Proc.devRef .tc main_v46) = _
  after_results
  rw [W5_arg9]
  rfl

theorem W6_arg3 : W6 m ρ c (Proc.devRef .tc main_arg3) = (m ((c : Thread nD τ).loc main_arg3)) := by
  show StableHlo.after hostOps3 (W5 m ρ c) (Proc.devRef .tc main_arg3) = _
  after_results
  exact W5_arg3 m ρ c

theorem W6_v17 : W6 m ρ c (Proc.devRef .tc main_v17) = (degCol (m ((c : Thread nD τ).loc main_arg2))) := by
  show StableHlo.after hostOps3 (W5 m ρ c) (Proc.devRef .tc main_v17) = _
  after_results
  exact W5_v17 m ρ c

theorem W7_v47_0 : W7 m ρ c (Proc.devRef .tc main_v47_0) = (mean (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg7))) := by
  refine (W7_arr m ρ c 6).trans ((Reg3.final_6 (V6 m ρ) c).trans ?_)
  show affine (W6 m ρ c (Proc.devRef .tc main_v43)) (W6 m ρ c (Proc.devRef .tc main_v17)) (W6 m ρ c (Proc.devRef .tc main_v45)) = _
  rw [W6_v43, W6_v17, W6_v45]
  rfl

theorem W7_v47_1 : W7 m ρ c (Proc.devRef .tc main_v47_1) = (lstd (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg9))) := by
  refine (W7_arr m ρ c 7).trans ((Reg3.final_7 (V6 m ρ) c).trans ?_)
  show affine (W6 m ρ c (Proc.devRef .tc main_v44)) (W6 m ρ c (Proc.devRef .tc main_v17)) (W6 m ρ c (Proc.devRef .tc main_v46)) = _
  rw [W6_v44, W6_v17, W6_v46]
  rfl

theorem W7_v47_2 : W7 m ρ c (Proc.devRef .tc main_v47_2) = (zz (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W7_arr m ρ c 8).trans ((Reg3.final_8 (V6 m ρ) c).trans ?_)
  show reparam (affine (W6 m ρ c (Proc.devRef .tc main_v43)) (W6 m ρ c (Proc.devRef .tc main_v17)) (W6 m ρ c (Proc.devRef .tc main_v45))) (affine (W6 m ρ c (Proc.devRef .tc main_v44)) (W6 m ρ c (Proc.devRef .tc main_v17)) (W6 m ρ c (Proc.devRef .tc main_v46))) (W6 m ρ c (Proc.devRef .tc main_arg3)) = _
  rw [W6_v43, W6_v44, W6_v17, W6_v45, W6_v46, W6_arg3]
  rfl

end Fold

end Cert.KernelIdeal.Val

end
-- ==== Proof.RefSpec.lean ====
/-
  The reference program's stages, each identified with the mathematics of Proof/Spec.lean: the scaled matrix products
  (`scaleMM`), the degree-normalised aggregates plus bias (`affine`), the maximum with zero (`relu`) and the final
  reparameterisation (`reparam`). The edge aggregations (a gather of rows followed by a scatter-add of rows) stay
  opaque terms here: they are the operands these identities are stated over.
-/
import proofs.«170982_j54142357733691_1_alg».proof.Proof.Gen.ReferenceIdeal.Read
import proofs.«170982_j54142357733691_1_alg».proof.Proof.Spec

noncomputable section

open scoped BigOperators

namespace Cert.ReferenceIdeal.RefSpec

open Cert.ReferenceIdeal Cert.ReferenceIdeal.Gen Cert.ReferenceIdeal.Read Idealize.ShloMosaic Idealize.ShloMosaic.ValueIdx Cert.Spec

variable (x0 : (⟨S100000x512, .f32⟩ : BufTy).Contents (Elt Ideal))
  (x1 x2 : (⟨S800000, .i32⟩ : BufTy).Contents (Elt Ideal))
  (x3 : (⟨S100000x32, .f32⟩ : BufTy).Contents (Elt Ideal))
  (x4 : (⟨S512x64, .f32⟩ : BufTy).Contents (Elt Ideal))
  (x5 : (⟨S64, .f32⟩ : BufTy).Contents (Elt Ideal))
  (x6 : (⟨S64x32, .f32⟩ : BufTy).Contents (Elt Ideal))
  (x7 : (⟨S32, .f32⟩ : BufTy).Contents (Elt Ideal))
  (x8 : (⟨S64x32, .f32⟩ : BufTy).Contents (Elt Ideal))
  (x9 : (⟨S32, .f32⟩ : BufTy).Contents (Elt Ideal))

/-- The first layer's product: rows of the features scaled by the source-degree factor, times the weights. -/
theorem ref_v19 : val_main_v19 x0 x1 x4 = scaleMM x0 (val_main_v16 x1) x4 := by
  funext i
  have el : ∀ k : Fin 512, lidx_main_v19 i k = ix2 (row i) k := fun k =>
    funext fun a => Fin.ext (by match a with | ⟨0, _⟩ => rfl | ⟨1, _⟩ => rfl)
  have er : ∀ k : Fin 512, ridx_main_v19 i k = ix2 k (col i) := fun k =>
    funext fun a => Fin.ext (by match a with | ⟨0, _⟩ => rfl | ⟨1, _⟩ => rfl)
  have es : ∀ k : Fin 512, idx_main_v17 (ix2 (row i) k) = ix2 (row i) (0 : Fin 1) := fun k =>
    funext fun a => Fin.ext (by match a with | ⟨0, _⟩ => rfl | ⟨1, _⟩ => rfl)
  rw [val_main_v19_apply]
  simp only [val_main_v18_apply, val_main_v17_apply, el, er, es, Ideal.mulf_def]
  rfl

/-- The first layer's output: the aggregate scaled by the destination-degree factor plus the bias, then the maximum
    with zero. -/
theorem ref_v36 : val_main_v36 x0 x1 x2 x4 x5
    = relu (affine (val_main_v29 x0 x1 x2 x4) (val_main_v30 x2) (val_main_v33 x5)) := by
  funext i
  have es : idx_main_v31 i = ix2 (row i) (0 : Fin 1) := funext fun a => Fin.ext (by match a with | ⟨0, _⟩ => rfl | ⟨1, _⟩ => rfl)
  have eb : idx_main_v34 i = ix2 (0 : Fin 1) (col i) := funext fun a => Fin.ext (by match a with | ⟨0, _⟩ => rfl | ⟨1, _⟩ => rfl)
  rw [val_main_v36_apply, val_main_v35_apply, val_main_v32_apply, val_main_v31_apply, val_main_v34_apply,
    val_main_call0_v0_apply, val_main_call0_cst_apply]
  simp only [es, eb, Ideal.mulf_def, Ideal.addf_def, Ideal.maximumf_def, Ideal.ofBits_def]
  rfl

/-- The second layer's product (the mean branch): rows of the hidden features scaled, times the weights. -/
theorem ref_v40 : val_main_v40 x0 x1 x2 x4 x5 x6
    = scaleMM (val_main_v36 x0 x1 x2 x4 x5) (val_main_v37 x1) x6 := by
  funext i
  rw [val_main_v40_apply]
  unfold scaleMM
  refine Finset.sum_congr rfl fun k _ => ?_
  rw [val_main_v39_apply, val_main_v38_apply]
  generalize val_main_v36 x0 x1 x2 x4 x5 = h
  generalize val_main_v37 x1 = s
  have el : lidx_main_v40 i k = ix2 (row i) k := funext fun a => Fin.ext (by match a with | ⟨0, _⟩ => rfl | ⟨1, _⟩ => rfl)
  have er : ridx_main_v40 i k = ix2 k (col i) := funext fun a => Fin.ext (by match a with | ⟨0, _⟩ => rfl | ⟨1, _⟩ => rfl)
  have es : idx_main_v38 (ix2 (row i) k) = ix2 (row i) (0 : Fin 1) := funext fun a => Fin.ext (by match a with | ⟨0, _⟩ => rfl | ⟨1, _⟩ => rfl)
  rw [el, er, es]
  rfl

/-- The mean: the second aggregate scaled by the destination-degree factor plus the bias. -/
theorem ref_v56 : val_main_v56 x0 x1 x2 x4 x5 x6 x7
    = affine (val_main_v50 x0 x1 x2 x4 x5 x6) (val_main_v51 x2) (val_main_v54 x7) := by
  funext i
  have es : idx_main_v52 i = ix2 (row i) (0 : Fin 1) := funext fun a => Fin.ext (by match a with | ⟨0, _⟩ => rfl | ⟨1, _⟩ => rfl)
  have eb : idx_main_v55 i = ix2 (0 : Fin 1) (col i) := funext fun a => Fin.ext (by match a with | ⟨0, _⟩ => rfl | ⟨1, _⟩ => rfl)
  rw [val_main_v56_apply, val_main_v53_apply, val_main_v52_apply, val_main_v55_apply]
  simp only [es, eb, Ideal.mulf_def, Ideal.addf_def]
  rfl

/-- The third layer's product (the log-deviation branch). -/
theorem ref_v60 : val_main_v60 x0 x1 x2 x4 x5 x8
    = scaleMM (val_main_v36 x0 x1 x2 x4 x5) (val_main_v57 x1) x8 := by
  funext i
  rw [val_main_v60_apply]
  unfold scaleMM
  refine Finset.sum_congr rfl fun k _ => ?_
  rw [val_main_v59_apply, val_main_v58_apply]
  generalize val_main_v36 x0 x1 x2 x4 x5 = h
  generalize val_main_v57 x1 = s
  have el : lidx_main_v60 i k = ix2 (row i) k := funext fun a => Fin.ext (by match a with | ⟨0, _⟩ => rfl | ⟨1, _⟩ => rfl)
  have er : ridx_main_v60 i k = ix2 k (col i) := funext fun a => Fin.ext (by match a with | ⟨0, _⟩ => rfl | ⟨1, _⟩ => rfl)
  have es : idx_main_v58 (ix2 (row i) k) = ix2 (row i) (0 : Fin 1) := funext fun a => Fin.ext (by match a with | ⟨0, _⟩ => rfl | ⟨1, _⟩ => rfl)
  rw [el, er, es]
  rfl

/-- The log-deviation: the third aggregate scaled by the destination-degree factor plus the bias. -/
theorem ref_v76 : val_main_v76 x0 x1 x2 x4 x5 x8 x9
    = affine (val_main_v70 x0 x1 x2 x4 x5 x8) (val_main_v71 x2) (val_main_v74 x9) := by
  funext i
  have es : idx_main_v72 i = ix2 (row i) (0 : Fin 1) := funext fun a => Fin.ext (by match a with | ⟨0, _⟩ => rfl | ⟨1, _⟩ => rfl)
  have eb : idx_main_v75 i = ix2 (0 : Fin 1) (col i) := funext fun a => Fin.ext (by match a with | ⟨0, _⟩ => rfl | ⟨1, _⟩ => rfl)
  rw [val_main_v76_apply, val_main_v73_apply, val_main_v72_apply, val_main_v75_apply]
  simp only [es, eb, Ideal.mulf_def, Ideal.addf_def]
  rfl

/-- The sample: the mean plus the noise times the exponential of the log-deviation. -/
theorem ref_v79 : val_main_v79 x0 x1 x2 x3 x4 x5 x6 x7 x8 x9
    = reparam (val_main_v56 x0 x1 x2 x4 x5 x6 x7) (val_main_v76 x0 x1 x2 x4 x5 x8 x9) x3 := by
  funext i
  rw [val_main_v79_apply, val_main_v78_apply, val_main_v77_apply]
  simp only [Ideal.mulf_def, Ideal.addf_def, Ideal.hostUnary_exp_def]
  rfl

/-! ## The same operation printed several times -/

/-- The source-degree column is one array, printed once per layer. -/
theorem v37_eq : val_main_v37 (F := Ideal) x1 = val_main_v16 x1 := rfl
theorem v57_eq : val_main_v57 (F := Ideal) x1 = val_main_v16 x1 := rfl

/-- The destination-degree column likewise. -/
theorem v51_eq : val_main_v51 (F := Ideal) x2 = val_main_v30 x2 := rfl
theorem v71_eq : val_main_v71 (F := Ideal) x2 = val_main_v30 x2 := rfl

/-- The destination indices as a column. -/
theorem v49_eq : val_main_v49 (F := Ideal) x2 = val_main_v28 x2 := rfl
theorem v69_eq : val_main_v69 (F := Ideal) x2 = val_main_v28 x2 := rfl

/-- The wrapped source indices as a column. -/
theorem v46_eq : val_main_v46 (F := Ideal) x1 = val_main_v25 x1 := rfl
theorem v66_eq : val_main_v66 (F := Ideal) x1 = val_main_v25 x1 := rfl

/-- The zero array the second and third aggregations start from. -/
theorem v68_eq : val_main_v68 (F := Ideal) = val_main_v48 := rfl

end Cert.ReferenceIdeal.RefSpec

end
-- ==== Proof.LibRowOps.lean ====
/-
  WHOLE-ROW GATHER AND WHOLE-ROW SCATTER-ADD OF A 2-D TABLE, READ AT AN INDEX.

  Two host operations on a table of shape `[N, C]` addressed by a column `[E, 1]` of row numbers:

  * the gather of whole rows (`rowGather`: offset axis 1, collapsed axis 0, start index map `[0]`, index vector axis 1,
    slice sizes `[1, C]`): result element `(e, c)` is the table's element `(ρ, c)`, where `ρ` is row number `e` read as a
    signed integer and clamped into `[0, N − 1]` (`gather_rows_apply`);

  * the scatter-add of whole rows (`rowScatter`: update window axis 1, inserted window axis 0, scatter axis map `[0]`,
    index vector axis 1) at the extended reals: result element `(r, c)` is the operand's element `(r, c)` plus the sum
    of the updates' elements `(e, c)` over exactly those `e` whose row number, read as a signed integer and NOT clamped,
    equals `r` (`scatterAdd_rows_apply`). A row number that is negative or at least `N` names no row: that update row
    is dropped, which the condition "equals `r`" with `r < N` already says.

  On the way: the coordinates of the scatter's start and window on each operand axis (`start_rows_zero`,
  `start_rows_one`, `window_rows_zero`, `window_rows_one`) and where an update element lands (`resultIdx?_rows`).
  All sizes `N E C` are generic; nothing enumerates an index range.
-/
import Idealize.ShloMosaic.PureOps.Ideal
import Idealize.ShloMosaic.Lib.ValueIdx

noncomputable section

open scoped BigOperators

namespace Idealize.ShloMosaic.RowOps

open Idealize.ShloMosaic Idealize.ShloMosaic.ValueIdx

/-! ## The gather of whole rows -/

/-- gather of whole rows: operand [N, C], start indices [E, 1], result [E, C] -/
abbrev rowGather (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE GATHER READ AT `(e, c)`: the table at row `idx[e, 0]`, read signed and clamped into `[0, N − 1]`, and column `c`.
    On axis 0 the operand coordinate is the clamped start alone (the axis is collapsed: no offset; nothing is batching);
    on axis 1 the start is `0` (the start index map does not name it) and the offset is the result's column. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    -- the start index of result element (e, c) is read at [e, 0]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = _
    rw [GatherDims.batchCoord_eq_zero _ _ _ List.not_mem_nil]
    unfold GatherDims.start
    rw [dif_neg (show (1 : Fin 2) ∉ (rowGather N E C wf).startIndexMap from
      fun h => absurd (List.mem_singleton.mp h) (show ¬((1 : Fin 2) = 0) by decide))]
    simp only [Nat.zero_add, Nat.add_zero]
    rfl

/-! ## The scatter-add of whole rows -/

/-- scatter-add of whole rows: operand [N, C], scatter indices [E, 1], updates [E, C] -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Coords
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On operand axis 0 the window of update element `(e, c')` starts at row number `idx[e, 0]`, read signed. -/
theorem start_rows_zero : (rowScatter N E C wf).start (ix2 e c') idx 0 = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e c') ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the scatter axis map does not name, the window starts at `0`. -/
theorem start_rows_one : (rowScatter N E C wf).start (ix2 e c') idx 1 = 0 := by
  unfold ScatterDims.start
  rw [dif_neg (show (1 : Fin 2) ∉ (rowScatter N E C wf).scatterDimsToOperandDims from
    fun h => absurd (List.mem_singleton.mp h) (show ¬((1 : Fin 2) = 0) by decide))]

/-- Operand axis 0 is an inserted window axis: the window coordinate there is `0`. -/
theorem window_rows_zero : (rowScatter N E C wf).window (ix2 e c') 0 = 0 := rfl

/-- On operand axis 1 the window coordinate is the update's column. -/
theorem window_rows_one : (rowScatter N E C wf).window (ix2 e c') 1 = c'.val := rfl

/-- WHERE AN UPDATE ELEMENT LANDS: update element `(e, c')` lands at operand element `(r, c)` exactly when its row number,
    read signed, is `r` and its column is `c`. (When the row number is outside `[0, N)` the element lands nowhere, and no
    `r < N` equals it.) -/
theorem resultIdx?_rows (r : Fin N) (c : Fin C) :
    (rowScatter N E C wf).resultIdx? (ix2 e c') idx = some (ix2 r c)
      ↔ (idx (ix2 e (0 : Fin 1))).toInt = (r.val : Int) ∧ c' = c := by
  have h0 := start_rows_zero wf idx e c'
  have h1 := start_rows_one wf idx e c'
  have w0 := window_rows_zero wf e c'
  have w1 := window_rows_one wf e c'
  have hr : r.val < N := r.isLt
  have hc : c'.val < C := c'.isLt
  unfold ScatterDims.resultIdx?
  split
  · -- the landing point is inside the operand: compare it with (r, c) coordinate by coordinate
    rename_i h
    rw [Option.some.injEq]
    constructor
    · intro hf
      have e0 := congrArg (fun f => (f 0).val) hf
      have e1 := congrArg (fun f => (f 1).val) hf
      simp only [h0, h1, w0, w1] at e0 e1
      have p0 := (h 0).1
      rw [h0, w0] at p0
      refine ⟨?_, Fin.ext ?_⟩
      · change ((idx (ix2 e (0 : Fin 1))).toInt + ((0 : Nat) : Int)).toNat = r.val at e0
        omega
      · change ((0 : Int) + (c'.val : Int)).toNat = c.val at e1
        omega
    · rintro ⟨hi, rfl⟩
      funext a
      refine Fin.ext ?_
      match a with
      | ⟨0, _⟩ =>
        change ((rowScatter N E C wf).start (ix2 e c') idx 0 + ((rowScatter N E C wf).window (ix2 e c') 0 : Nat)).toNat = r.val
        rw [h0, w0, hi]; omega
      | ⟨1, _⟩ =>
        change ((rowScatter N E C wf).start (ix2 e c') idx 1 + ((rowScatter N E C wf).window (ix2 e c') 1 : Nat)).toNat = c'.val
        rw [h1, w1]; omega
  · -- the landing point is outside the operand: then the row number is no r < N
    rename_i h
    constructor
    · intro hf; cases hf
    · rintro ⟨hi, rfl⟩
      exfalso; apply h
      intro a
      match a with
      | ⟨0, _⟩ =>
        change 0 ≤ (rowScatter N E C wf).start (ix2 e c') idx 0 + ((rowScatter N E C wf).window (ix2 e c') 0 : Nat)
          ∧ (rowScatter N E C wf).start (ix2 e c') idx 0 + ((rowScatter N E C wf).window (ix2 e c') 0 : Nat) < (N : Int)
        rw [h0, w0, hi]; omega
      | ⟨1, _⟩ =>
        change 0 ≤ (rowScatter N E C wf).start (ix2 e c') idx 1 + ((rowScatter N E C wf).window (ix2 e c') 1 : Nat)
          ∧ (rowScatter N E C wf).start (ix2 e c') idx 1 + ((rowScatter N E C wf).window (ix2 e c') 1 : Nat) < (C : Int)
        rw [h1, w1]; omega

end Coords

/-- THE SCATTER-ADD READ AT `(r, c)`: the operand's element plus the updates' column `c` summed over the rows `e` whose row
    number, read signed, is `r`. The sum over update elements `(e, c')` landing at `(r, c)` is split by coordinates; for
    each `e` the inner sum over `c'` keeps the one term `c' = c`, and that only when row `e`'s number is `r`. -/
theorem scatterAdd_rows_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (r : Fin N) (c : Fin C) :
    Host.scatterAdd (F := Ideal) (φ := .f32) (rowScatter N E C wf) x idx upd (ix2 r c)
      = x (ix2 r c) + ∑ e ∈ Finset.univ.filter (fun e : Fin E => (idx (ix2 e (0 : Fin 1))).toInt = (r.val : Int)),
          upd (ix2 e c) := by
  show Ideal.hostScatterAdd (rowScatter N E C wf) x idx upd (ix2 r c) = _
  unfold Ideal.hostScatterAdd
  congr 1
  rw [Finset.sum_filter, Finset.sum_filter, sum_idx2]
  refine Finset.sum_congr rfl fun e _ => ?_
  simp only [resultIdx?_rows]
  by_cases hi : (idx (ix2 e (0 : Fin 1))).toInt = (r.val : Int)
  · simp only [hi, true_and, if_true]
    rw [Finset.sum_ite_eq' Finset.univ c (fun c' => upd (ix2 e c'))]
    simp only [Finset.mem_univ, if_true]
  · simp only [hi, false_and, if_false, Finset.sum_const_zero]

end Idealize.ShloMosaic.RowOps

end
-- ==== Proof.Bridge.lean ====
/-
  The two programs compute one function: the idealized kernel's three results (Proof/KDefs.lean), as functions of the ten argument
  arrays, are the reference's three results (the generated read-back of its run, read through Proof/RefSpec.lean).

  Layer by layer both are the same row-local functions (Proof/Spec.lean) of the same operands; what differs is bookkeeping:
    * the degree scale reaches the kernels as a reshape `[n] → [n, 1]` of the degree vector, the reference as a broadcast along a new
      unit axis; a bias reaches the kernels as a reshape `[c] → [1, c]`, the reference as a broadcast: the same arrays;
    * the first edge aggregation is literally the same two host operations on both sides;
    * the second aggregation the kernel's program runs ONCE, on the two heads' products laid side by side as 64 columns, and cuts the
      result back into its left and right 32 columns, where the reference aggregates each head's 32 columns by itself. A gather of
      rows and a scatter-add of rows act on every column separately (Proof/LibRowOps.lean: entry `(r, j)` of the scatter-add is the sum,
      over the edges whose destination is `r`, of column `j` of the gathered source rows), so column `j` of the joint aggregate is
      column `j` of the left head's aggregate for `j < 32` and column `j − 32` of the right head's otherwise. No algebra beyond
      reading the two sums term by term is needed: the summation ranges and the summands coincide.
-/
import proofs.«170982_j54142357733691_1_alg».proof.Proof.KDefs
import proofs.«170982_j54142357733691_1_alg».proof.Proof.RefSpec
import proofs.«170982_j54142357733691_1_alg».proof.Proof.LibRowOps
import Idealize.ShloMosaic.Lib.ValueLayout
import Idealize.ShloMosaic.Lib.Pipeline.Value

set_option maxRecDepth 16384

noncomputable section

open scoped BigOperators

namespace Cert.Bridge

open Cert.KernelIdeal Cert.KernelIdeal.Val Cert.ReferenceIdeal.Read Cert.ReferenceIdeal.RefSpec Cert.Spec
open Idealize.ShloMosaic Idealize.ShloMosaic.ValueIdx Idealize.ShloMosaic.RowOps

/-! ## The operands: scale columns, bias rows, row numbers, the zero array -/

/-- A vector reshaped to a column reads, at `(r, u)`, the vector at `r`. -/
theorem shapeCast_a_a1_apply {α : Type} {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- The degree column the kernels take (a reshape of the degree vector) is the reference's (its broadcast along a unit axis),
    for the source ends. -/
theorem col_eq16 (idx : IArr S800000) : degCol idx = val_main_v16 (F := Ideal) idx := by
  have hK : degCol idx = shapeCast S100000x1 (val_main_v7 (F := Ideal) idx) Cert.KernelIdeal.Gen.shapeCasts_S100000_S100000x1 := rfl
  rw [hK]
  unfold val_main_v16
  generalize val_main_v7 (F := Ideal) idx = y
  funext i
  obtain ⟨r, u, rfl⟩ : ∃ (r : Fin 100000) (u : Fin 1), i = ix2 r u := ⟨i 0, i 1, eq_ix2 i⟩
  rw [shapeCast_a_a1_apply]
  exact (broadcastInDim_apply _ _ y (ix2 r u) (ix1 r) (fun a => by match a with | ⟨0, _⟩ => rfl)).symm

/-- The same for the destination ends. -/
theorem col_eq30 (idx : IArr S800000) : degCol idx = val_main_v30 (F := Ideal) idx := by
  have hK : degCol idx = shapeCast S100000x1 (val_main_v15 (F := Ideal) idx) Cert.KernelIdeal.Gen.shapeCasts_S100000_S100000x1 := rfl
  rw [hK]
  unfold val_main_v30
  generalize val_main_v15 (F := Ideal) idx = y
  funext i
  obtain ⟨r, u, rfl⟩ : ∃ (r : Fin 100000) (u : Fin 1), i = ix2 r u := ⟨i 0, i 1, eq_ix2 i⟩
  rw [shapeCast_a_a1_apply]
  exact (broadcastInDim_apply _ _ y (ix2 r u) (ix1 r) (fun a => by match a with | ⟨0, _⟩ => rfl)).symm

/-- A bias as a row: the kernels' reshape is the reference's broadcast. -/
theorem row64_eq (b : Arr S64) : row64 b = val_main_v33 (F := Ideal) b := by
  unfold row64 val_main_v33
  funext i
  obtain ⟨u, j, rfl⟩ : ∃ (u : Fin 1) (j : Fin 64), i = ix2 u j := ⟨i 0, i 1, eq_ix2 i⟩
  rw [shapeCast_a_1a_apply]
  exact (broadcastInDim_apply _ _ b (ix2 u j) (ix1 j) (fun a => by match a with | ⟨0, _⟩ => rfl)).symm

/-- The same for the 32-wide biases. -/
theorem row32_eq (b : Arr S32) : row32 b = val_main_v54 (F := Ideal) b := by
  unfold row32 val_main_v54
  funext i
  obtain ⟨u, j, rfl⟩ : ∃ (u : Fin 1) (j : Fin 32), i = ix2 u j := ⟨i 0, i 1, eq_ix2 i⟩
  rw [shapeCast_a_1a_apply]
  exact (broadcastInDim_apply _ _ b (ix2 u j) (ix1 j) (fun a => by match a with | ⟨0, _⟩ => rfl)).symm

/-! ## The second aggregation: the joint 64-column aggregate, cut, is each head's own -/

/-- Two tables side by side read, in the left 32 columns, the left table. -/
theorem catCols_lo (a b : Arr S100000x32) (g : Fin 100000) (q : Fin 32) (hq : 0 + q.val < 64) :
    catCols a b (ix2 g ⟨0 + q.val, hq⟩) = a (ix2 g q) := by
  unfold catCols
  exact concatenate_pair_apply_left (t := S100000x64) (s₁ := S100000x32) (s₂ := S100000x32) (1 : Fin 2) a b _
    (ix2 g ⟨0 + q.val, hq⟩) rfl (ix2 g q) (fun bb => by
      match bb with
      | ⟨0, _⟩ => rfl
      | ⟨1, _⟩ => show q.val = 0 + q.val; omega)

/-- Two tables side by side read, in the right 32 columns, the right table. -/
theorem catCols_hi (a b : Arr S100000x32) (g : Fin 100000) (q : Fin 32) (hq : 32 + q.val < 64) :
    catCols a b (ix2 g ⟨32 + q.val, hq⟩) = b (ix2 g q) := by
  unfold catCols
  exact concatenate_pair_apply_right (t := S100000x64) (s₁ := S100000x32) (s₂ := S100000x32) (1 : Fin 2) a b _
    (ix2 g ⟨32 + q.val, hq⟩) rfl rfl (ix2 g q) (fun bb hb => by
      match bb, hb with
      | ⟨0, _⟩, _ => rfl
      | ⟨1, _⟩, hb => exact absurd rfl hb) (by show q.val + 32 = 32 + q.val; omega)

/-- The left 32 columns of the aggregate of two tables side by side are the aggregate of the left table. -/
theorem aggLo (src dst : IArr S800000) (a b : Arr S100000x32) :
    colsLo (agg64 src dst (catCols a b))
      = Host.scatterAdd (F := Ideal) (φ := .f32) Cert.ReferenceIdeal.scatter_S100000x32_S800000x1_S800000x32_1_0_0_1
          (val_main_v48 (F := Ideal)) (val_main_v49 (F := Ideal) dst)
          (Host.gather Cert.ReferenceIdeal.gather_S100000x32_S800000x1_S800000x32_1_0_n_n_0_1_132 a (val_main_v46 (F := Ideal) src)) := by
  funext i
  obtain ⟨r, q, rfl⟩ : ∃ (r : Fin 100000) (q : Fin 32), i = ix2 r q := ⟨i 0, i 1, eq_ix2 i⟩
  unfold colsLo agg64
  rw [slice2_axis1_eq 0 _ _ r q,
    show val_main_v49 (F := Ideal) dst = dstIdx dst from rfl, show val_main_v46 (F := Ideal) src = normIdx src from rfl,
    show Cert.KernelIdeal.scatter_S100000x64_S800000x1_S800000x64_1_0_0_1 = rowScatter 100000 800000 64 (by decide) from rfl,
    show Cert.ReferenceIdeal.scatter_S100000x32_S800000x1_S800000x32_1_0_0_1 = rowScatter 100000 800000 32 (by decide) from rfl,
    scatterAdd_rows_apply, scatterAdd_rows_apply]
  refine congrArg₂ (· + ·) rfl (Finset.sum_congr rfl fun e _ => ?_)
  rw [show Cert.KernelIdeal.gather_S100000x64_S800000x1_S800000x64_1_0_n_n_0_1_164 = rowGather 100000 800000 64 (by decide) from rfl,
    show Cert.ReferenceIdeal.gather_S100000x32_S800000x1_S800000x32_1_0_n_n_0_1_132 = rowGather 100000 800000 32 (by decide) from rfl,
    gather_rows_apply (by omega), gather_rows_apply (by omega)]
  exact catCols_lo a b _ q _

/-- The right 32 columns of the aggregate of two tables side by side are the aggregate of the right table. -/
theorem aggHi (src dst : IArr S800000) (a b : Arr S100000x32) :
    colsHi (agg64 src dst (catCols a b))
      = Host.scatterAdd (F := Ideal) (φ := .f32) Cert.ReferenceIdeal.scatter_S100000x32_S800000x1_S800000x32_1_0_0_1
          (val_main_v48 (F := Ideal)) (val_main_v49 (F := Ideal) dst)
          (Host.gather Cert.ReferenceIdeal.gather_S100000x32_S800000x1_S800000x32_1_0_n_n_0_1_132 b (val_main_v46 (F := Ideal) src)) := by
  funext i
  obtain ⟨r, q, rfl⟩ : ∃ (r : Fin 100000) (q : Fin 32), i = ix2 r q := ⟨i 0, i 1, eq_ix2 i⟩
  unfold colsHi agg64
  rw [slice2_axis1_eq 32 _ _ r q,
    show val_main_v49 (F := Ideal) dst = dstIdx dst from rfl, show val_main_v46 (F := Ideal) src = normIdx src from rfl,
    show Cert.KernelIdeal.scatter_S100000x64_S800000x1_S800000x64_1_0_0_1 = rowScatter 100000 800000 64 (by decide) from rfl,
    show Cert.ReferenceIdeal.scatter_S100000x32_S800000x1_S800000x32_1_0_0_1 = rowScatter 100000 800000 32 (by decide) from rfl,
    scatterAdd_rows_apply, scatterAdd_rows_apply]
  refine congrArg₂ (· + ·) rfl (Finset.sum_congr rfl fun e _ => ?_)
  rw [show Cert.KernelIdeal.gather_S100000x64_S800000x1_S800000x64_1_0_n_n_0_1_164 = rowGather 100000 800000 64 (by decide) from rfl,
    show Cert.ReferenceIdeal.gather_S100000x32_S800000x1_S800000x32_1_0_n_n_0_1_132 = rowGather 100000 800000 32 (by decide) from rfl,
    gather_rows_apply (by omega), gather_rows_apply (by omega)]
  exact catCols_hi a b _ q _

/-! ## Layer by layer -/

section Layers

variable (x0 : Arr S100000x512) (x1 x2 : IArr S800000) (x3 : Arr S100000x32) (x4 : Arr S512x64) (x5 : Arr S64)
  (x6 : Arr S64x32) (x7 : Arr S32) (x8 : Arr S64x32) (x9 : Arr S32)

/-- The first layer's product. -/
theorem h1_eq : h1 x0 x1 x4 = val_main_v19 (F := Ideal) x0 x1 x4 := by
  unfold h1
  rw [col_eq16, ← ref_v19]

/-- The hidden layer: the first aggregation is the same two host operations on both sides. -/
theorem hh_eq : hh x0 x1 x2 x4 x5 = val_main_v36 (F := Ideal) x0 x1 x2 x4 x5 := by
  unfold hh
  rw [h1_eq, col_eq30, row64_eq, ref_v36]
  rfl

/-- The mean head's product. -/
theorem preM6_eq : preM x0 x1 x2 x4 x5 x6 = val_main_v40 (F := Ideal) x0 x1 x2 x4 x5 x6 := by
  unfold preM
  rw [hh_eq, col_eq16, ref_v40, v37_eq]

/-- The log-deviation head's product. -/
theorem preM8_eq : preM x0 x1 x2 x4 x5 x8 = val_main_v60 (F := Ideal) x0 x1 x2 x4 x5 x8 := by
  unfold preM
  rw [hh_eq, col_eq16, ref_v60, v57_eq]

/-- The mean. -/
theorem mean_eq : mean x0 x1 x2 x4 x5 x6 x8 x7 = val_main_v56 (F := Ideal) x0 x1 x2 x4 x5 x6 x7 := by
  unfold mean g2
  rw [aggLo, preM6_eq, col_eq30, row32_eq, ref_v56, v51_eq]
  rfl

/-- The log-deviation. -/
theorem lstd_eq : lstd x0 x1 x2 x4 x5 x6 x8 x9 = val_main_v76 (F := Ideal) x0 x1 x2 x4 x5 x8 x9 := by
  unfold lstd g2
  rw [aggHi, preM8_eq, col_eq30, row32_eq, ref_v76, v71_eq]
  rfl

/-- The sample. -/
theorem zz_eq : zz x0 x1 x2 x3 x4 x5 x6 x7 x8 x9 = val_main_v79 (F := Ideal) x0 x1 x2 x3 x4 x5 x6 x7 x8 x9 := by
  unfold zz
  rw [mean_eq, lstd_eq, ref_v79]

end Layers

end Cert.Bridge

end
-- ==== Proof.lean ====
/-
  The certificate of a two-layer graph-convolution variational encoder (`h = relu(conv₁ x)`, `mean = conv₂ h`, `log_std = conv₃ h`,
  `z = mean + noise · exp log_std`; each `conv` scales the rows by the source degrees' power −½, multiplies by the weights, sums
  every node's incoming edges, scales by the destination degrees' power −½ and adds a bias) computed by four row-blocked kernels
  around two host edge aggregations, against the plain reference.

  The frames: each program terminates on every weakly fair schedule, nothing faults, the arguments are unchanged (the
  kernel programs' launches over their seven segments; the reference's straight-line run).
  The idealization rewrote nothing, so `preserves` is trivial.
  The algebraic claim: on the extended reals both programs end with the same three arrays. Both are the same composition of
  row-local functions (Proof/Spec.lean) — the kernels compute them block of rows by block of rows (Proof/KReg0–3.lean over Proof/KPay.lean), the
  host stretches between them are read as pure operations (Proof/KVal.lean over Proof/KRun.lean), the reference's run is read stage by stage
  (Proof/RefSpec.lean) — and the one place the programs differ in shape, a joint 64-column edge aggregation cut in two against two
  32-column ones, is equal column by column (Proof/Bridge.lean over Proof/LibRowOps.lean). No law of the extended reals beyond
  reading both sides' sums term by term is used, so the finiteness precondition is never opened.
-/
import proofs.«170982_j54142357733691_1_alg».proof.Defs
import proofs.«170982_j54142357733691_1_alg».proof.Proof.Gen.Kernel
import proofs.«170982_j54142357733691_1_alg».proof.Proof.Gen.KernelIdeal
import proofs.«170982_j54142357733691_1_alg».proof.Proof.Gen.ReferenceIdeal
import proofs.«170982_j54142357733691_1_alg».proof.Proof.Gen.Pre_finite_inputs
import proofs.«170982_j54142357733691_1_alg».proof.Proof.Gen.ReferenceIdeal.Run
import proofs.«170982_j54142357733691_1_alg».proof.Proof.Gen.ReferenceIdeal.Read
import proofs.«170982_j54142357733691_1_alg».proof.Proof.KernelFrameP
import proofs.«170982_j54142357733691_1_alg».proof.Proof.KernelIdealFrameP
import proofs.«170982_j54142357733691_1_alg».proof.Proof.KRun
import proofs.«170982_j54142357733691_1_alg».proof.Proof.KVal
import proofs.«170982_j54142357733691_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.GenP.frame m ρ

/-- The idealized kernel program runs and leaves its arguments unchanged. -/
theorem frame_ki : Cert.frame_KernelIdeal := fun m ρ _ => Cert.KernelIdeal.GenP.frame m ρ

/-- The idealized reference runs and leaves its arguments unchanged: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- On the extended reals, from memories agreeing on the ten arguments, both programs end with the sample, the mean and the
    log-deviation as the same functions of the arguments. -/
theorem algebraic : Cert.algebraic_KernelIdeal_ReferenceIdeal := by
  intro m ρ m' ρ' _ hagree
  refine ⟨fun c => Cert.KernelIdeal.Val.zz (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)),
    fun c => Cert.KernelIdeal.Val.mean (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg8)) (m ((c : Thread Cert.KernelIdeal.nD Cert.KernelIdeal.τ).loc Cert.KernelIdeal.main_arg7)),
    fun c => Cert.KernelIdeal.Val.lstd (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg8)) (m ((c : Thread Cert.KernelIdeal.nD Cert.KernelIdeal.τ).loc Cert.KernelIdeal.main_arg9)), ?_, ?_⟩
  · refine (θ_run Cert.KernelIdeal.defs _ _).mono (fun r h c => ?_) (Cert.KernelIdeal.Run.run_at (F := Ideal) m ρ)
    exact ⟨(h c Cert.KernelIdeal.main_v47_2 (by decide)).trans (Cert.KernelIdeal.Val.W7_v47_2 m ρ c),
      (h c Cert.KernelIdeal.main_v47_0 (by decide)).trans (Cert.KernelIdeal.Val.W7_v47_0 m ρ c),
      (h c Cert.KernelIdeal.main_v47_1 (by decide)).trans (Cert.KernelIdeal.Val.W7_v47_1 m ρ c),
      (h c Cert.KernelIdeal.main_arg0 (by decide)).trans (Cert.KernelIdeal.GenP.W7_main_arg0 m ρ c),
      (h c Cert.KernelIdeal.main_arg1 (by decide)).trans (Cert.KernelIdeal.GenP.W7_main_arg1 m ρ c),
      (h c Cert.KernelIdeal.main_arg2 (by decide)).trans (Cert.KernelIdeal.GenP.W7_main_arg2 m ρ c),
      (h c Cert.KernelIdeal.main_arg3 (by decide)).trans (Cert.KernelIdeal.GenP.W7_main_arg3 m ρ c),
      (h c Cert.KernelIdeal.main_arg4 (by decide)).trans (Cert.KernelIdeal.GenP.W7_main_arg4 m ρ c),
      (h c Cert.KernelIdeal.main_arg5 (by decide)).trans (Cert.KernelIdeal.GenP.W7_main_arg5 m ρ c),
      (h c Cert.KernelIdeal.main_arg6 (by decide)).trans (Cert.KernelIdeal.GenP.W7_main_arg6 m ρ c),
      (h c Cert.KernelIdeal.main_arg7 (by decide)).trans (Cert.KernelIdeal.GenP.W7_main_arg7 m ρ c),
      (h c Cert.KernelIdeal.main_arg8 (by decide)).trans (Cert.KernelIdeal.GenP.W7_main_arg8 m ρ c),
      (h c Cert.KernelIdeal.main_arg9 (by decide)).trans (Cert.KernelIdeal.GenP.W7_main_arg9 m ρ c)⟩
  · refine (θ_run Cert.ReferenceIdeal.defs _ _).mono (fun r h c => ?_) (Cert.ReferenceIdeal.Value.run (F := Ideal) m' ρ')
    obtain ⟨h79, h56, h76, hargs⟩ := h c
    obtain ⟨g0, g1, g2, g3, g4, g5, g6, g7, g8, g9⟩ := hagree c
    refine ⟨?_, ?_, ?_, hargs⟩
    · rw [h79, Cert.ReferenceIdeal.Read.val_main_v79_eq, g0, g1, g2, g3, g4, g5, g6, g7, g8, g9]
      exact (Cert.Bridge.zz_eq _ _ _ _ _ _ _ _ _ _).symm
    · rw [h56, Cert.ReferenceIdeal.Read.val_main_v56_eq, g0, g1, g2, g4, g5, g6, g7]
      exact (Cert.Bridge.mean_eq _ _ _ _ _ _ _ _).symm
    · rw [h76, Cert.ReferenceIdeal.Read.val_main_v76_eq, g0, g1, g2, g4, g5, g8, g9]
      exact (Cert.Bridge.lstd_eq _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
